-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v138) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x900x4 : Shape := ⟨3, ![16, 900, 4]⟩
abbrev S1600x4 : Shape := ⟨2, ![1600, 4]⟩
abbrev S_ : Shape := ⟨0, ![]⟩

class Facts : Prop where
  bcast_S_S16x900x4 : S_.BroadcastsInDim S16x900x4 (![] : Fin 0 → Fin S16x900x4.rank)
  reducesTo_S16x900x4_S_d0_1_2 : S16x900x4.ReducesTo [0, 1, 2] S_
  h_S_ : 0 < S_.numel
  bcast_S_S1600x4 : S_.BroadcastsInDim S1600x4 (![] : Fin 0 → Fin S1600x4.rank)
  reducesTo_S1600x4_S_d0_1 : S1600x4.ReducesTo [0, 1] S_

variable [Facts]

def fn {F : FTy → Type} [FloatOps F] (main_arg0 : FVec F S16x900x4 .f32) (main_arg1 : FVec F S1600x4 .f32) : IVec S_ 1 :=
  let main_v0 : FVec F S16x900x4 .f32 := Host.absf main_arg0
  let main_cst : FVec F S_ .f32 := constant S_ .f32 0x7F800000#32
  let main_v1 : FVec F S16x900x4 .f32 := broadcastInDim S16x900x4 ![] bcast_S_S16x900x4 main_cst
  let main_v2 : IVec S16x900x4 1 := cmpf .olt main_v0 main_v1
  let main_c : IVec S_ 1 := constantI S_ 1 1#1
  let main_v3 : IVec S_ 1 := (fun x v => Host.reduce IntOp.andi x v reducesTo_S16x900x4_S_d0_1_2 h_S_) main_v2 main_c
  let main_v4 : FVec F S1600x4 .f32 := Host.absf main_arg1
  let main_cst_0 : FVec F S_ .f32 := constant S_ .f32 0x7F800000#32
  let main_v5 : FVec F S1600x4 .f32 := broadcastInDim S1600x4 ![] bcast_S_S1600x4 main_cst_0
  let main_v6 : IVec S1600x4 1 := cmpf .olt main_v4 main_v5
  let main_c_1 : IVec S_ 1 := constantI S_ 1 1#1
  let main_v7 : IVec S_ 1 := (fun x v => Host.reduce IntOp.andi x v reducesTo_S1600x4_S_d0_1 h_S_) main_v6 main_c_1
  let main_v8 : IVec S_ 1 := andi main_v3 main_v7
  main_v8
-- ==== Kernel.lean ====
abbrev S16x900x4 : Shape := ⟨3, ![16, 900, 4]⟩
abbrev S1600x4 : Shape := ⟨2, ![1600, 4]⟩
abbrev S_ : Shape := ⟨0, ![]⟩
abbrev S1792x4 : Shape := ⟨2, ![1792, 4]⟩
abbrev S16x900x1792 : Shape := ⟨3, ![16, 900, 1792]⟩
abbrev S1x900x4 : Shape := ⟨3, ![1, 900, 4]⟩
abbrev S256x4 : Shape := ⟨2, ![256, 4]⟩
abbrev S1x900x256 : Shape := ⟨3, ![1, 900, 256]⟩
abbrev S900x4 : Shape := ⟨2, ![900, 4]⟩
abbrev S900x1 : Shape := ⟨2, ![900, 1]⟩
abbrev S256x1 : Shape := ⟨2, ![256, 1]⟩
abbrev S256 : Shape := ⟨1, ![256]⟩
abbrev S1x256 : Shape := ⟨2, ![1, 256]⟩
abbrev S900x256 : Shape := ⟨2, ![900, 256]⟩
abbrev S16x900x1600 : Shape := ⟨3, ![16, 900, 1600]⟩

abbrev nBuf : Space → Nat
  | .hbm => 7
  | .vmem => 6
  | .smem => 0
  | _ => 0

abbrev bufTy : (tb : Table) → Fin (tcTables nBuf tb) → BufTy
  | .hbm, ⟨0, _⟩ => ⟨S16x900x4, .f32⟩
  | .hbm, ⟨1, _⟩ => ⟨S1600x4, .f32⟩
  | .hbm, ⟨2, _⟩ => ⟨S_, .i32⟩
  | .hbm, ⟨3, _⟩ => ⟨S_, .f32⟩
  | .hbm, ⟨4, _⟩ => ⟨S1792x4, .f32⟩
  | .hbm, ⟨5, _⟩ => ⟨S16x900x1792, .f32⟩
  | .hbm, ⟨6, _⟩ => ⟨S16x900x1600, .f32⟩
  | .local _ .vmem, ⟨0, _⟩ => ⟨S1x900x4, .f32⟩
  | .local _ .vmem, ⟨1, _⟩ => ⟨S1x900x4, .f32⟩
  | .local _ .vmem, ⟨2, _⟩ => ⟨S256x4, .f32⟩
  | .local _ .vmem, ⟨3, _⟩ => ⟨S256x4, .f32⟩
  | .local _ .vmem, ⟨4, _⟩ => ⟨S1x900x256, .f32⟩
  | .local _ .vmem, ⟨5, _⟩ => ⟨S1x900x256, .f32⟩
  | _, _ => ⟨S16x900x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 7], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x900x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x4 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x900x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  pads_S1600x4_S1792x4_01920_000 : S1600x4.Pads (![0, 0] : Fin 2 → Nat) ![192, 0] ![0, 0] S1792x4
  h_S_ : 0 < S_.numel
  inb_S1x900x4_S1x900x4_0_0_0 : ∀ a, (![0, 0, 0] : Fin 3 → Nat) a + S1x900x4.size a ≤ S1x900x4.size a
  h_S1x900x4 : 0 < S1x900x4.numel
  shapeCasts_S1x900x4_S900x4 : S1x900x4.ShapeCasts S900x4
  inb_S256x4_S256x4_0_0 : ∀ a, (![0, 0] : Fin 2 → Nat) a + S256x4.size a ≤ S256x4.size a
  h_S256x4 : 0 < S256x4.numel
  shapeCasts_S256x4_S256x4 : S256x4.ShapeCasts S256x4
  slices_S900x4_o0_0_S900x1 : S900x4.Slices ![0, 0] S900x1
  slices_S900x4_o0_1_S900x1 : S900x4.Slices ![0, 1] S900x1
  slices_S900x4_o0_2_S900x1 : S900x4.Slices ![0, 2] S900x1
  slices_S900x4_o0_3_S900x1 : S900x4.Slices ![0, 3] S900x1
  slices_S256x4_o0_0_S256x1 : S256x4.Slices ![0, 0] S256x1
  shapeCasts_S256x1_S256 : S256x1.ShapeCasts S256
  shapeCasts_S256_S1x256 : S256.ShapeCasts S1x256
  slices_S256x4_o0_1_S256x1 : S256x4.Slices ![0, 1] S256x1
  slices_S256x4_o0_2_S256x1 : S256x4.Slices ![0, 2] S256x1
  slices_S256x4_o0_3_S256x1 : S256x4.Slices ![0, 3] S256x1
  broadcasts_S900x1_S900x256 : S900x1.Broadcasts S900x256
  broadcasts_S1x256_S900x256 : S1x256.Broadcasts S900x256
  inb_S1x900x256_S1x900x256_0_0_0 : ∀ a, (![0, 0, 0] : Fin 3 → Nat) a + S1x900x256.size a ≤ S1x900x256.size a
  h_S1x900x256 : 0 < S1x900x256.numel
  shapeCasts_S1x900x256_S900x256 : S1x900x256.ShapeCasts S900x256
  shapeCasts_S900x256_S1x900x256 : S900x256.ShapeCasts S1x900x256
  slices_S16x900x1792_S16x900x1600_0_0_0 : S16x900x1792.Slices ![0, 0, 0] S16x900x1600
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x900x4.size a ≤ S16x900x4.size a
  hwx0_0 : ∀ i : grid0.Coords, EltTy.bits .f32 = 32 ∨ (Rect.block (s := S16x900x4) S1x900x4.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4.size a ≤ S1792x4.size a
  hwx0_1 : ∀ i : grid0.Coords, EltTy.bits .f32 = 32 ∨ (Rect.block (s := S1792x4) S256x4.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x900x256.size a ≤ S16x900x1792.size a
  hwx0_2 : ∀ i : grid0.Coords, EltTy.bits .f32 = 32 ∨ (Rect.block (s := S16x900x1792) S1x900x256.size (cc0_transform_2 i) (hinb0_2 i)).WholeWords (EltTy.packing .f32)

variable [Facts₀]

abbrev win0_0 : Pipeline.Window sig grid0 :=
  Pipeline.Window.ofSpec (Memref.whole main_arg0) S1x900x4.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S256x4.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x900x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16x900x4 : Shape := ⟨3, ![16, 900, 4]⟩
abbrev S1600x4 : Shape := ⟨2, ![1600, 4]⟩
abbrev S14400x4 : Shape := ⟨2, ![14400, 4]⟩
abbrev S14400x1x4 : Shape := ⟨3, ![14400, 1, 4]⟩
abbrev S1x1600x4 : Shape := ⟨3, ![1, 1600, 4]⟩
abbrev S14400x1600x4 : Shape := ⟨3, ![14400, 1600, 4]⟩
abbrev S_ : Shape := ⟨0, ![]⟩
abbrev S14400x1600 : Shape := ⟨2, ![14400, 1600]⟩
abbrev S14400x1 : Shape := ⟨2, ![14400, 1]⟩
abbrev S14400 : Shape := ⟨1, ![14400]⟩
abbrev S1600x1 : Shape := ⟨2, ![1600, 1]⟩
abbrev S1600 : Shape := ⟨1, ![1600]⟩
abbrev S14400x2 : Shape := ⟨2, ![14400, 2]⟩
abbrev S14400x1x2 : Shape := ⟨3, ![14400, 1, 2]⟩
abbrev S1600x2 : Shape := ⟨2, ![1600, 2]⟩
abbrev S1x1600x2 : Shape := ⟨3, ![1, 1600, 2]⟩
abbrev S14400x1600x2 : Shape := ⟨3, ![14400, 1600, 2]⟩
abbrev S14400x1600x1 : Shape := ⟨3, ![14400, 1600, 1]⟩
abbrev S1x1600 : Shape := ⟨2, ![1, 1600]⟩
abbrev S16x900x1600 : Shape := ⟨3, ![16, 900, 1600]⟩

abbrev nBuf : Space → Nat
  | .hbm => 158
  | .vmem => 0
  | .smem => 0
  | _ => 0

abbrev hbmTy0_0 (i : Nat) : BufTy := match i % 128 with
  | 0 => ⟨S16x900x4, .f32⟩
  | 1 => ⟨S1600x4, .f32⟩
  | 2 => ⟨S14400x4, .f32⟩
  | 3 => ⟨S14400x1x4, .f32⟩
  | 4 => ⟨S1x1600x4, .f32⟩
  | 5 => ⟨S14400x1600x4, .f32⟩
  | 6 => ⟨S14400x1600x4, .f32⟩
  | 7 => ⟨S14400x1600x4, .f32⟩
  | 8 => ⟨S14400x1600x4, .f32⟩
  | 9 => ⟨S_, .f32⟩
  | 10 => ⟨S14400x1600, .f32⟩
  | 11 => ⟨S14400x1, .f32⟩
  | 12 => ⟨S14400, .f32⟩
  | 13 => ⟨S14400x1, .f32⟩
  | 14 => ⟨S14400, .f32⟩
  | 15 => ⟨S14400x1, .f32⟩
  | 16 => ⟨S14400, .f32⟩
  | 17 => ⟨S14400x1, .f32⟩
  | 18 => ⟨S14400, .f32⟩
  | 19 => ⟨S_, .f32⟩
  | 20 => ⟨S14400, .f32⟩
  | 21 => ⟨S14400, .f32⟩
  | 22 => ⟨S14400, .f32⟩
  | 23 => ⟨S_, .f32⟩
  | 24 => ⟨S14400, .f32⟩
  | 25 => ⟨S14400, .f32⟩
  | 26 => ⟨S14400, .f32⟩
  | 27 => ⟨S_, .f32⟩
  | 28 => ⟨S14400, .f32⟩
  | 29 => ⟨S14400, .f32⟩
  | 30 => ⟨S14400, .f32⟩
  | 31 => ⟨S_, .f32⟩
  | 32 => ⟨S14400, .f32⟩
  | 33 => ⟨S14400, .f32⟩
  | 34 => ⟨S14400, .f32⟩
  | 35 => ⟨S14400x1, .f32⟩
  | 36 => ⟨S14400x1, .f32⟩
  | 37 => ⟨S14400x1, .f32⟩
  | 38 => ⟨S14400x1, .f32⟩
  | 39 => ⟨S14400x4, .f32⟩
  | 40 => ⟨S1600x1, .f32⟩
  | 41 => ⟨S1600, .f32⟩
  | 42 => ⟨S1600x1, .f32⟩
  | 43 => ⟨S1600, .f32⟩
  | 44 => ⟨S1600x1, .f32⟩
  | 45 => ⟨S1600, .f32⟩
  | 46 => ⟨S1600x1, .f32⟩
  | 47 => ⟨S1600, .f32⟩
  | 48 => ⟨S_, .f32⟩
  | 49 => ⟨S1600, .f32⟩
  | 50 => ⟨S1600, .f32⟩
  | 51 => ⟨S1600, .f32⟩
  | 52 => ⟨S_, .f32⟩
  | 53 => ⟨S1600, .f32⟩
  | 54 => ⟨S1600, .f32⟩
  | 55 => ⟨S1600, .f32⟩
  | 56 => ⟨S_, .f32⟩
  | 57 => ⟨S1600, .f32⟩
  | 58 => ⟨S1600, .f32⟩
  | 59 => ⟨S1600, .f32⟩
  | 60 => ⟨S_, .f32⟩
  | 61 => ⟨S1600, .f32⟩
  | 62 => ⟨S1600, .f32⟩
  | 63 => ⟨S1600, .f32⟩
  | 64 => ⟨S1600x1, .f32⟩
  | 65 => ⟨S1600x1, .f32⟩
  | 66 => ⟨S1600x1, .f32⟩
  | 67 => ⟨S1600x1, .f32⟩
  | 68 => ⟨S1600x4, .f32⟩
  | 69 => ⟨S14400x1, .f32⟩
  | 70 => ⟨S14400, .f32⟩
  | 71 => ⟨S14400x1, .f32⟩
  | 72 => ⟨S14400, .f32⟩
  | 73 => ⟨S14400, .f32⟩
  | 74 => ⟨S14400x1, .f32⟩
  | 75 => ⟨S14400, .f32⟩
  | 76 => ⟨S14400x1, .f32⟩
  | 77 => ⟨S14400, .f32⟩
  | 78 => ⟨S14400, .f32⟩
  | 79 => ⟨S14400, .f32⟩
  | 80 => ⟨S1600x1, .f32⟩
  | 81 => ⟨S1600, .f32⟩
  | 82 => ⟨S1600x1, .f32⟩
  | 83 => ⟨S1600, .f32⟩
  | 84 => ⟨S1600, .f32⟩
  | 85 => ⟨S1600x1, .f32⟩
  | 86 => ⟨S1600, .f32⟩
  | 87 => ⟨S1600x1, .f32⟩
  | 88 => ⟨S1600, .f32⟩
  | 89 => ⟨S1600, .f32⟩
  | 90 => ⟨S1600, .f32⟩
  | 91 => ⟨S14400x2, .f32⟩
  | 92 => ⟨S14400x1x2, .f32⟩
  | 93 => ⟨S1600x2, .f32⟩
  | 94 => ⟨S1x1600x2, .f32⟩
  | 95 => ⟨S14400x1600x2, .f32⟩
  | 96 => ⟨S14400x1600x2, .f32⟩
  | 97 => ⟨S14400x1600x2, .f32⟩
  | 98 => ⟨S14400x2, .f32⟩
  | 99 => ⟨S14400x1x2, .f32⟩
  | 100 => ⟨S1600x2, .f32⟩
  | 101 => ⟨S1x1600x2, .f32⟩
  | 102 => ⟨S14400x1600x2, .f32⟩
  | 103 => ⟨S14400x1600x2, .f32⟩
  | 104 => ⟨S14400x1600x2, .f32⟩
  | 105 => ⟨S14400x1600x2, .f32⟩
  | 106 => ⟨S_, .f32⟩
  | 107 => ⟨S_, .f32⟩
  | 108 => ⟨S14400x1600x2, .f32⟩
  | 109 => ⟨S14400x1600x2, .f32⟩
  | 110 => ⟨S14400x1600x1, .f32⟩
  | 111 => ⟨S14400x1600, .f32⟩
  | 112 => ⟨S14400x1600x1, .f32⟩
  | 113 => ⟨S14400x1600, .f32⟩
  | 114 => ⟨S14400x1600, .f32⟩
  | 115 => ⟨S14400x1, .f32⟩
  | 116 => ⟨S1x1600, .f32⟩
  | 117 => ⟨S14400x1600, .f32⟩
  | 118 => ⟨S14400x1600, .f32⟩
  | 119 => ⟨S14400x1600, .f32⟩
  | 120 => ⟨S14400x1600, .f32⟩
  | 121 => ⟨S14400x1600, .f32⟩
  | 122 => ⟨S14400x2, .f32⟩
  | 123 => ⟨S14400x1x2, .f32⟩
  | 124 => ⟨S1600x2, .f32⟩
  | 125 => ⟨S1x1600x2, .f32⟩
  | 126 => ⟨S14400x1600x2, .f32⟩
  | 127 => ⟨S14400x1600x2, .f32⟩
  | _ => ⟨S16x900x4, .f32⟩

abbrev hbmTy0_1 (i : Nat) : BufTy := match i % 128 with
  | 0 => ⟨S14400x1600x2, .f32⟩
  | 1 => ⟨S14400x2, .f32⟩
  | 2 => ⟨S14400x1x2, .f32⟩
  | 3 => ⟨S1600x2, .f32⟩
  | 4 => ⟨S1x1600x2, .f32⟩
  | 5 => ⟨S14400x1600x2, .f32⟩
  | 6 => ⟨S14400x1600x2, .f32⟩
  | 7 => ⟨S14400x1600x2, .f32⟩
  | 8 => ⟨S14400x1600x2, .f32⟩
  | 9 => ⟨S_, .f32⟩
  | 10 => ⟨S_, .f32⟩
  | 11 => ⟨S14400x1600x2, .f32⟩
  | 12 => ⟨S14400x1600x2, .f32⟩
  | 13 => ⟨S14400x1600x1, .f32⟩
  | 14 => ⟨S14400x1600, .f32⟩
  | 15 => ⟨S14400x1600x1, .f32⟩
  | 16 => ⟨S14400x1600, .f32⟩
  | 17 => ⟨S14400x1600, .f32⟩
  | 18 => ⟨S14400x1600, .f32⟩
  | 19 => ⟨S14400x1600, .f32⟩
  | 20 => ⟨S14400x1600, .f32⟩
  | 21 => ⟨S14400x1600, .f32⟩
  | 22 => ⟨S_, .f32⟩
  | 23 => ⟨S14400x1600, .f32⟩
  | 24 => ⟨S14400x1600, .f32⟩
  | 25 => ⟨S_, .f32⟩
  | 26 => ⟨S14400x1600, .f32⟩
  | 27 => ⟨S14400x1600, .f32⟩
  | 28 => ⟨S14400x1600, .f32⟩
  | 29 => ⟨S16x900x1600, .f32⟩
  | _ => ⟨S16x900x4, .f32⟩

abbrev hbmTy (i : Nat) : BufTy := match i / 128 with
  | 0 => hbmTy0_0 i
  | 1 => hbmTy0_1 i
  | _ => ⟨S16x900x4, .f32⟩

abbrev bufTy : (tb : Table) → Fin (tcTables nBuf tb) → BufTy
  | .hbm, ⟨i, _⟩ => hbmTy i
  | _, _ => ⟨S16x900x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_cst_0 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_cst_1 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_cst_2 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_cst_3 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_cst_4 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_cst_5 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_cst_6 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_cst_7 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_v77 : Ref sig .tc := ⟨.hbm, 88, rfl⟩
abbrev main_v78 : Ref sig .tc := ⟨.hbm, 89, rfl⟩
abbrev main_v79 : Ref sig .tc := ⟨.hbm, 90, rfl⟩
abbrev main_v80 : Ref sig .tc := ⟨.hbm, 91, rfl⟩
abbrev main_v81 : Ref sig .tc := ⟨.hbm, 92, rfl⟩
abbrev main_v82 : Ref sig .tc := ⟨.hbm, 93, rfl⟩
abbrev main_v83 : Ref sig .tc := ⟨.hbm, 94, rfl⟩
abbrev main_v84 : Ref sig .tc := ⟨.hbm, 95, rfl⟩
abbrev main_v85 : Ref sig .tc := ⟨.hbm, 96, rfl⟩
abbrev main_v86 : Ref sig .tc := ⟨.hbm, 97, rfl⟩
abbrev main_v87 : Ref sig .tc := ⟨.hbm, 98, rfl⟩
abbrev main_v88 : Ref sig .tc := ⟨.hbm, 99, rfl⟩
abbrev main_v89 : Ref sig .tc := ⟨.hbm, 100, rfl⟩
abbrev main_v90 : Ref sig .tc := ⟨.hbm, 101, rfl⟩
abbrev main_v91 : Ref sig .tc := ⟨.hbm, 102, rfl⟩
abbrev main_v92 : Ref sig .tc := ⟨.hbm, 103, rfl⟩
abbrev main_v93 : Ref sig .tc := ⟨.hbm, 104, rfl⟩
abbrev main_v94 : Ref sig .tc := ⟨.hbm, 105, rfl⟩
abbrev main_cst_8 : Ref sig .tc := ⟨.hbm, 106, rfl⟩
abbrev main_call0_v0 : Ref sig .tc := ⟨.hbm, 107, rfl⟩
abbrev main_call0_v1 : Ref sig .tc := ⟨.hbm, 108, rfl⟩
abbrev main_v95 : Ref sig .tc := ⟨.hbm, 109, rfl⟩
abbrev main_v96 : Ref sig .tc := ⟨.hbm, 110, rfl⟩
abbrev main_v97 : Ref sig .tc := ⟨.hbm, 111, rfl⟩
abbrev main_v98 : Ref sig .tc := ⟨.hbm, 112, rfl⟩
abbrev main_v99 : Ref sig .tc := ⟨.hbm, 113, rfl⟩
abbrev main_v100 : Ref sig .tc := ⟨.hbm, 114, rfl⟩
abbrev main_v101 : Ref sig .tc := ⟨.hbm, 115, rfl⟩
abbrev main_v102 : Ref sig .tc := ⟨.hbm, 116, rfl⟩
abbrev main_v103 : Ref sig .tc := ⟨.hbm, 117, rfl⟩
abbrev main_v104 : Ref sig .tc := ⟨.hbm, 118, rfl⟩
abbrev main_v105 : Ref sig .tc := ⟨.hbm, 119, rfl⟩
abbrev main_v106 : Ref sig .tc := ⟨.hbm, 120, rfl⟩
abbrev main_v107 : Ref sig .tc := ⟨.hbm, 121, rfl⟩
abbrev main_v108 : Ref sig .tc := ⟨.hbm, 122, rfl⟩
abbrev main_v109 : Ref sig .tc := ⟨.hbm, 123, rfl⟩
abbrev main_v110 : Ref sig .tc := ⟨.hbm, 124, rfl⟩
abbrev main_v111 : Ref sig .tc := ⟨.hbm, 125, rfl⟩
abbrev main_v112 : Ref sig .tc := ⟨.hbm, 126, rfl⟩
abbrev main_v113 : Ref sig .tc := ⟨.hbm, 127, rfl⟩
abbrev main_v114 : Ref sig .tc := ⟨.hbm, 128, rfl⟩
abbrev main_v115 : Ref sig .tc := ⟨.hbm, 129, rfl⟩
abbrev main_v116 : Ref sig .tc := ⟨.hbm, 130, rfl⟩
abbrev main_v117 : Ref sig .tc := ⟨.hbm, 131, rfl⟩
abbrev main_v118 : Ref sig .tc := ⟨.hbm, 132, rfl⟩
abbrev main_v119 : Ref sig .tc := ⟨.hbm, 133, rfl⟩
abbrev main_v120 : Ref sig .tc := ⟨.hbm, 134, rfl⟩
abbrev main_v121 : Ref sig .tc := ⟨.hbm, 135, rfl⟩
abbrev main_v122 : Ref sig .tc := ⟨.hbm, 136, rfl⟩
abbrev main_cst_9 : Ref sig .tc := ⟨.hbm, 137, rfl⟩
abbrev main_call1_v0 : Ref sig .tc := ⟨.hbm, 138, rfl⟩
abbrev main_call1_v1 : Ref sig .tc := ⟨.hbm, 139, rfl⟩
abbrev main_v123 : Ref sig .tc := ⟨.hbm, 140, rfl⟩
abbrev main_v124 : Ref sig .tc := ⟨.hbm, 141, rfl⟩
abbrev main_v125 : Ref sig .tc := ⟨.hbm, 142, rfl⟩
abbrev main_v126 : Ref sig .tc := ⟨.hbm, 143, rfl⟩
abbrev main_v127 : Ref sig .tc := ⟨.hbm, 144, rfl⟩
abbrev main_v128 : Ref sig .tc := ⟨.hbm, 145, rfl⟩
abbrev main_v129 : Ref sig .tc := ⟨.hbm, 146, rfl⟩
abbrev main_v130 : Ref sig .tc := ⟨.hbm, 147, rfl⟩
abbrev main_v131 : Ref sig .tc := ⟨.hbm, 148, rfl⟩
abbrev main_v132 : Ref sig .tc := ⟨.hbm, 149, rfl⟩
abbrev main_cst_10 : Ref sig .tc := ⟨.hbm, 150, rfl⟩
abbrev main_v133 : Ref sig .tc := ⟨.hbm, 151, rfl⟩
abbrev main_v134 : Ref sig .tc := ⟨.hbm, 152, rfl⟩
abbrev main_cst_11 : Ref sig .tc := ⟨.hbm, 153, rfl⟩
abbrev main_v135 : Ref sig .tc := ⟨.hbm, 154, rfl⟩
abbrev main_v136 : Ref sig .tc := ⟨.hbm, 155, rfl⟩
abbrev main_v137 : Ref sig .tc := ⟨.hbm, 156, rfl⟩
abbrev main_v138 : Ref sig .tc := ⟨.hbm, 157, rfl⟩

abbrev nD : Nat := 1
abbrev τ : Topo := Topo.v7x

variable {F : FTy → Type} [FloatOps F]

class Facts₀ : Prop where
  shapeCasts_S16x900x4_S14400x4 : S16x900x4.ShapeCasts S14400x4
  bcast_S14400x4_S14400x1x4_0_2 : S14400x4.BroadcastsInDim S14400x1x4 (![0, 2] : Fin 2 → Fin S14400x1x4.rank)
  bcast_S1600x4_S1x1600x4_1_2 : S1600x4.BroadcastsInDim S1x1600x4 (![1, 2] : Fin 2 → Fin S1x1600x4.rank)
  bcast_S14400x1x4_S14400x1600x4_0_1_2 : S14400x1x4.BroadcastsInDim S14400x1600x4 (![0, 1, 2] : Fin 3 → Fin S14400x1600x4.rank)
  bcast_S1x1600x4_S14400x1600x4_0_1_2 : S1x1600x4.BroadcastsInDim S14400x1600x4 (![0, 1, 2] : Fin 3 → Fin S14400x1600x4.rank)
  reducesTo_S14400x1600x4_S14400x1600_d2 : S14400x1600x4.ReducesTo [2] S14400x1600
  h_S_ : 0 < S_.numel
  slices_S14400x4_S14400x1_0_0 : S14400x4.Slices ![0, 0] S14400x1
  shapeCasts_S14400x1_S14400 : S14400x1.ShapeCasts S14400
  slices_S14400x4_S14400x1_0_1 : S14400x4.Slices ![0, 1] S14400x1
  slices_S14400x4_S14400x1_0_2 : S14400x4.Slices ![0, 2] S14400x1
  slices_S14400x4_S14400x1_0_3 : S14400x4.Slices ![0, 3] S14400x1
  bcast_S_S14400 : S_.BroadcastsInDim S14400 (![] : Fin 0 → Fin S14400.rank)
  bcast_S14400_S14400x1_0 : S14400.BroadcastsInDim S14400x1 (![0] : Fin 1 → Fin S14400x1.rank)
  concatenates_S14400x1_S14400x1_S14400x1_S14400x1_S14400x4_d1 : Shape.Concatenates [S14400x1, S14400x1, S14400x1, S14400x1] S14400x4 1
  slices_S1600x4_S1600x1_0_0 : S1600x4.Slices ![0, 0] S1600x1
  shapeCasts_S1600x1_S1600 : S1600x1.ShapeCasts S1600
  slices_S1600x4_S1600x1_0_1 : S1600x4.Slices ![0, 1] S1600x1
  slices_S1600x4_S1600x1_0_2 : S1600x4.Slices ![0, 2] S1600x1
  slices_S1600x4_S1600x1_0_3 : S1600x4.Slices ![0, 3] S1600x1
  bcast_S_S1600 : S_.BroadcastsInDim S1600 (![] : Fin 0 → Fin S1600.rank)
  bcast_S1600_S1600x1_0 : S1600.BroadcastsInDim S1600x1 (![0] : Fin 1 → Fin S1600x1.rank)
  concatenates_S1600x1_S1600x1_S1600x1_S1600x1_S1600x4_d1 : Shape.Concatenates [S1600x1, S1600x1, S1600x1, S1600x1] S1600x4 1
  slices_S14400x4_S14400x2_0_0 : S14400x4.Slices ![0, 0] S14400x2
  bcast_S14400x2_S14400x1x2_0_2 : S14400x2.BroadcastsInDim S14400x1x2 (![0, 2] : Fin 2 → Fin S14400x1x2.rank)
  slices_S1600x4_S1600x2_0_0 : S1600x4.Slices ![0, 0] S1600x2
  bcast_S1600x2_S1x1600x2_1_2 : S1600x2.BroadcastsInDim S1x1600x2 (![1, 2] : Fin 2 → Fin S1x1600x2.rank)
  bcast_S14400x1x2_S14400x1600x2_0_1_2 : S14400x1x2.BroadcastsInDim S14400x1600x2 (![0, 1, 2] : Fin 3 → Fin S14400x1600x2.rank)
  bcast_S1x1600x2_S14400x1600x2_0_1_2 : S1x1600x2.BroadcastsInDim S14400x1600x2 (![0, 1, 2] : Fin 3 → Fin S14400x1600x2.rank)
  slices_S14400x4_S14400x2_0_2 : S14400x4.Slices ![0, 2] S14400x2
  slices_S1600x4_S1600x2_0_2 : S1600x4.Slices ![0, 2] S1600x2
  bcast_S_S14400x1600x2 : S_.BroadcastsInDim S14400x1600x2 (![] : Fin 0 → Fin S14400x1600x2.rank)
  slices_S14400x1600x2_S14400x1600x1_0_0_0 : S14400x1600x2.Slices ![0, 0, 0] S14400x1600x1
  shapeCasts_S14400x1600x1_S14400x1600 : S14400x1600x1.ShapeCasts S14400x1600
  slices_S14400x1600x2_S14400x1600x1_0_0_1 : S14400x1600x2.Slices ![0, 0, 1] S14400x1600x1
  bcast_S1600_S1x1600_1 : S1600.BroadcastsInDim S1x1600 (![1] : Fin 1 → Fin S1x1600.rank)
  bcast_S14400x1_S14400x1600_0_1 : S14400x1.BroadcastsInDim S14400x1600 (![0, 1] : Fin 2 → Fin S14400x1600.rank)
  bcast_S1x1600_S14400x1600_0_1 : S1x1600.BroadcastsInDim S14400x1600 (![0, 1] : Fin 2 → Fin S14400x1600.rank)
  bcast_S_S14400x1600 : S_.BroadcastsInDim S14400x1600 (![] : Fin 0 → Fin S14400x1600.rank)
  shapeCasts_S14400x1600_S16x900x1600 : S14400x1600.ShapeCasts S16x900x1600

variable [Facts₀]

class Facts : Prop extends Facts₀ where

variable [Facts]
-- ==== Proof.CostSpec.lean ====
/-
  The matching cost of one predicted box against one ground-truth box, as a function of the
  eight coordinates (centre x, centre y, width, height of each) on the extended reals:
  five times the L1 distance of the coordinates, less twice the generalized IoU of the two
  boxes' corner forms. Two spellings of it are stated. `costTiled` takes each box's area as
  width times height and subtracts the weighted GIoU; `costDense` takes each area from the
  corners, (x1 - x0) * (y1 - y0), starts the L1 sum from the zero word, and adds the weighted
  NEGATED GIoU. For finite coordinates the two agree: a corner pair's difference
  (c + w/2) - (c - w/2) is the width w, a sum started at zero is the sum, and
  a - t * g = a + t * (-g) on the extended reals.
-/
import Idealize.ShloMosaic.PureOps.Ideal
import Idealize.ShloMosaic.PureOps.Ideal.Laws

noncomputable section

namespace Cert.CostSpec

open Idealize.ShloMosaic

/-- The float words the programs spell, read as extended reals: 0.5, 0.0, 5.0, 2.0. -/
abbrev cHalf : EReal := Ideal.ofBits .f32 0x3F000000#32
abbrev cZero : EReal := Ideal.ofBits .f32 0x00000000#32
abbrev cFive : EReal := Ideal.ofBits .f32 0x40A00000#32
abbrev cTwo : EReal := Ideal.ofBits .f32 0x40000000#32

/-- The low and the high corner of an interval of centre `c` and width `w`. -/
def lo (c w : EReal) : EReal := c - cHalf * w
def hi (c w : EReal) : EReal := c + cHalf * w

/-- The absolute value as both programs compute it. -/
def absE (x : EReal) : EReal := max x (-x)

/-- The L1 distance of the two boxes' coordinates, summed in coordinate order. -/
def l1 (pc py pw ph gc gy gw gh : EReal) : EReal :=
  absE (pc - gc) + absE (py - gy) + absE (pw - gw) + absE (ph - gh)

/-- The clipped length of the intersection of the intervals [a0, a1] and [b0, b1]. -/
def overlap (a0 a1 b0 b1 : EReal) : EReal := max cZero (min a1 b1 - max a0 b0)
/-- The clipped length of the smallest interval holding both. -/
def span (a0 a1 b0 b1 : EReal) : EReal := max cZero (max a1 b1 - min a0 b0)

/-- The generalized IoU from the two areas and the eight corners. -/
def giou (area1 area2 px0 py0 px1 py1 gx0 gy0 gx1 gy1 : EReal) : EReal :=
  Ideal.div (overlap px0 px1 gx0 gx1 * overlap py0 py1 gy0 gy1)
      (area1 + area2 - overlap px0 px1 gx0 gx1 * overlap py0 py1 gy0 gy1)
    - Ideal.div (span px0 px1 gx0 gx1 * span py0 py1 gy0 gy1
        - (area1 + area2 - overlap px0 px1 gx0 gx1 * overlap py0 py1 gy0 gy1))
      (span px0 px1 gx0 gx1 * span py0 py1 gy0 gy1)

/-- The cost with each area width times height, the weighted GIoU subtracted. -/
def costTiled (pc py pw ph gc gy gw gh : EReal) : EReal :=
  cFive * l1 pc py pw ph gc gy gw gh
    - cTwo * giou (pw * ph) (gw * gh) (lo pc pw) (lo py ph) (hi pc pw) (hi py ph)
        (lo gc gw) (lo gy gh) (hi gc gw) (hi gy gh)

/-- The cost with each area taken from the corners, the L1 sum started at the zero word,
    the weighted negated GIoU added. -/
def costDense (pc py pw ph gc gy gw gh : EReal) : EReal :=
  cFive * (cZero + l1 pc py pw ph gc gy gw gh)
    + cTwo * -(giou ((hi pc pw - lo pc pw) * (hi py ph - lo py ph))
        ((hi gc gw - lo gc gw) * (hi gy gh - lo gy gh)) (lo pc pw) (lo py ph) (hi pc pw) (hi py ph)
        (lo gc gw) (lo gy gh) (hi gc gw) (hi gy gh))

/-- The word 0x3F000000 denotes one half. -/
theorem cHalf_eq : cHalf = ((1 / 2 : ℝ) : EReal) := by
  simp [cHalf, Ideal.ofBits, Ideal.ieee, -EReal.coe_mul]; norm_num

/-- For a real centre and width the corners' difference is the width. -/
theorem hi_sub_lo (c w : ℝ) : hi (c : EReal) (w : EReal) - lo (c : EReal) (w : EReal) = (w : EReal) := by
  unfold hi lo
  rw [cHalf_eq, ← EReal.coe_mul, ← EReal.coe_add, ← EReal.coe_sub, ← EReal.coe_sub]
  exact congrArg _ (by ring)

/-- On finite coordinates the two spellings of the cost agree. -/
theorem costDense_eq_costTiled (pc py pw ph gc gy gw gh : ℝ) :
    costDense pc py pw ph gc gy gw gh = costTiled pc py pw ph gc gy gw gh := by
  unfold costDense costTiled
  rw [hi_sub_lo, hi_sub_lo, hi_sub_lo, hi_sub_lo]
  rw [show cZero = 0 from Ideal.ofBits_zero_f32, zero_add, mul_neg, ← sub_eq_add_neg]

end Cert.CostSpec

end
-- ==== Proof.LibKeepdims.lean ====
/-
  Two layout operations read at an index given by coordinates, for the column that a row-wise reduction with kept
  dimensions leaves: a vector `[a]` re-laid as the column `[a, 1]`, and a column `[a, 1]` repeated along the second axis
  to `[a, b]`. (The row forms `[a] → [1, a]` and `[1, b] → [a, b]` are in the library.) Both read the operand at the
  row coordinate alone.
-/
import Idealize.ShloMosaic.Lib.ValueLayout

namespace Cert.Keepdims

open Idealize.ShloMosaic Idealize.ShloMosaic.ValueIdx

variable {α : Type}

/-- An `[a]` array cast to the column `[a, 1]` reads, at `(i, u)`, the operand at `i`, whatever the unit coordinate `u`:
    the row-major position of `(i, u)` in `[a, 1]` is `i · 1 + 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the operand's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Keepdims
-- ==== Proof.LibColumnDrop.lean ====
/-
  One layout operation read at an index given by coordinates: a column `[a, 1]` re-laid as the vector `[a]`
  (the trailing unit axis dropped). Its entry `i` is the column's entry of row `i`: the row-major position of
  `(i, 0)` in `[a, 1]` is `i · 1 + 0 = i`.
-/
import Idealize.ShloMosaic.Lib.ValueLayout

namespace Cert.ColumnDrop

open Idealize.ShloMosaic Idealize.ShloMosaic.ValueIdx

variable {α : Type}

/-- An `[a, 1]` array cast to `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

end Cert.ColumnDrop
-- ==== Proof.TileEntry.lean ====
/-
  One entry of the tile the kernel body stores. The body loads a `[1, 900, 4]` block of predicted boxes and a
  `[256, 4]` block of ground-truth boxes and stores a `[1, 900, 256]` tile; its entry `(0, p, g)` depends on row
  `p` of the first block and row `g` of the second alone, and is `CostSpec.costTiled` of those eight numbers.
  The columns are cut out of the blocks (a slice along the second axis; for the ground-truth block the column is
  then laid as a row), the corners and areas are formed per row, and every later step is pointwise on
  `[900, 256]` after a column `[900, 1]` or a row `[1, 256]` is repeated over the tile.
-/
import proofs.«167534_j47588237639953_1_alg».proof.Proof.Gen.KernelIdeal.Skeleton
import proofs.«167534_j47588237639953_1_alg».proof.Proof.CostSpec
import proofs.«167534_j47588237639953_1_alg».proof.Proof.LibKeepdims
import proofs.«167534_j47588237639953_1_alg».proof.Proof.LibColumnDrop
import Idealize.ShloMosaic.Lib.ValueIdx
import Idealize.ShloMosaic.Lib.ValueLayout
import Idealize.ShloMosaic.Lib.Pipeline.Value

noncomputable section

namespace Cert.TileEntry

open Idealize.ShloMosaic Idealize.ShloMosaic.ValueIdx Cert.KernelIdeal Cert.KernelIdeal.Gen Cert.CostSpec

/-! ## The columns of the two blocks -/

/-- Column `k` of the prediction block, cut as a `[900, 1]` column, read at row `p`. -/
theorem predCol (x0 : Vec Ideal S1x900x4 .f32) (p : Fin 900) (k : Fin 4)
    (h : S900x4.Slices ![0, k.val] S900x1) :
    extractStridedSlice S900x1 ![0, k.val] (k0_pay2 x0) h (ix2 p (0 : Fin 1)) = x0 (ix3 (0 : Fin 1) p k) :=
  (slice2_axis1_apply k.val (k0_pay2 x0) h p (0 : Fin 1) k rfl).trans
    (shapeCast_1ab_ab_apply x0 shapeCasts_S1x900x4_S900x4 p k)

theorem pred0 (x0 : Vec Ideal S1x900x4 .f32) (p : Fin 900) : k0_pay4 x0 (ix2 p (0 : Fin 1)) = x0 (ix3 (0 : Fin 1) p (0 : Fin 4)) :=
  predCol x0 p 0 slices_S900x4_o0_0_S900x1
theorem pred1 (x0 : Vec Ideal S1x900x4 .f32) (p : Fin 900) : k0_pay5 x0 (ix2 p (0 : Fin 1)) = x0 (ix3 (0 : Fin 1) p (1 : Fin 4)) :=
  predCol x0 p 1 slices_S900x4_o0_1_S900x1
theorem pred2 (x0 : Vec Ideal S1x900x4 .f32) (p : Fin 900) : k0_pay6 x0 (ix2 p (0 : Fin 1)) = x0 (ix3 (0 : Fin 1) p (2 : Fin 4)) :=
  predCol x0 p 2 slices_S900x4_o0_2_S900x1
theorem pred3 (x0 : Vec Ideal S1x900x4 .f32) (p : Fin 900) : k0_pay7 x0 (ix2 p (0 : Fin 1)) = x0 (ix3 (0 : Fin 1) p (3 : Fin 4)) :=
  predCol x0 p 3 slices_S900x4_o0_3_S900x1

/-- Column `k` of the ground-truth block, cut as a column, re-laid as a vector and then as a `[1, 256]` row,
    read at column `g` of the row. -/
theorem gtCol (x1 : Vec Ideal S256x4 .f32) (g : Fin 256) (k : Fin 4)
    (h : S256x4.Slices ![0, k.val] S256x1) :
    shapeCast S1x256 (shapeCast S256 (extractStridedSlice S256x1 ![0, k.val] (k0_pay3 x1) h) shapeCasts_S256x1_S256)
        shapeCasts_S256_S1x256 (ix2 (0 : Fin 1) g) = x1 (ix2 g k) :=
  (shapeCast_a_1a_apply _ shapeCasts_S256_S1x256 (0 : Fin 1) g).trans
    ((Cert.ColumnDrop.shapeCast_a1_a_apply _ shapeCasts_S256x1_S256 g).trans
      ((slice2_axis1_apply k.val (k0_pay3 x1) h g (0 : Fin 1) k rfl).trans
        (congrFun (shapeCast_self x1 shapeCasts_S256x4_S256x4) (ix2 g k))))

theorem gt0 (x1 : Vec Ideal S256x4 .f32) (g : Fin 256) : k0_pay8 x1 (ix2 (0 : Fin 1) g) = x1 (ix2 g (0 : Fin 4)) :=
  gtCol x1 g 0 slices_S256x4_o0_0_S256x1
theorem gt1 (x1 : Vec Ideal S256x4 .f32) (g : Fin 256) : k0_pay9 x1 (ix2 (0 : Fin 1) g) = x1 (ix2 g (1 : Fin 4)) :=
  gtCol x1 g 1 slices_S256x4_o0_1_S256x1
theorem gt2 (x1 : Vec Ideal S256x4 .f32) (g : Fin 256) : k0_pay10 x1 (ix2 (0 : Fin 1) g) = x1 (ix2 g (2 : Fin 4)) :=
  gtCol x1 g 2 slices_S256x4_o0_2_S256x1
theorem gt3 (x1 : Vec Ideal S256x4 .f32) (g : Fin 256) : k0_pay11 x1 (ix2 (0 : Fin 1) g) = x1 (ix2 g (3 : Fin 4)) :=
  gtCol x1 g 3 slices_S256x4_o0_3_S256x1

/-! ## Corners and areas, per row -/

theorem predLoX (x0 : Vec Ideal S1x900x4 .f32) (p : Fin 900) : k0_pay12 x0 (ix2 p (0 : Fin 1)) = lo (x0 (ix3 (0 : Fin 1) p (0 : Fin 4))) (x0 (ix3 (0 : Fin 1) p (2 : Fin 4))) := by
  show k0_pay4 x0 (ix2 p (0 : Fin 1)) - cHalf * k0_pay6 x0 (ix2 p (0 : Fin 1)) = _
  rw [pred0, pred2]; rfl
theorem predLoY (x0 : Vec Ideal S1x900x4 .f32) (p : Fin 900) : k0_pay13 x0 (ix2 p (0 : Fin 1)) = lo (x0 (ix3 (0 : Fin 1) p (1 : Fin 4))) (x0 (ix3 (0 : Fin 1) p (3 : Fin 4))) := by
  show k0_pay5 x0 (ix2 p (0 : Fin 1)) - cHalf * k0_pay7 x0 (ix2 p (0 : Fin 1)) = _
  rw [pred1, pred3]; rfl
theorem predHiX (x0 : Vec Ideal S1x900x4 .f32) (p : Fin 900) : k0_pay14 x0 (ix2 p (0 : Fin 1)) = hi (x0 (ix3 (0 : Fin 1) p (0 : Fin 4))) (x0 (ix3 (0 : Fin 1) p (2 : Fin 4))) := by
  show k0_pay4 x0 (ix2 p (0 : Fin 1)) + cHalf * k0_pay6 x0 (ix2 p (0 : Fin 1)) = _
  rw [pred0, pred2]; rfl
theorem predHiY (x0 : Vec Ideal S1x900x4 .f32) (p : Fin 900) : k0_pay15 x0 (ix2 p (0 : Fin 1)) = hi (x0 (ix3 (0 : Fin 1) p (1 : Fin 4))) (x0 (ix3 (0 : Fin 1) p (3 : Fin 4))) := by
  show k0_pay5 x0 (ix2 p (0 : Fin 1)) + cHalf * k0_pay7 x0 (ix2 p (0 : Fin 1)) = _
  rw [pred1, pred3]; rfl
theorem predArea (x0 : Vec Ideal S1x900x4 .f32) (p : Fin 900) : k0_pay20 x0 (ix2 p (0 : Fin 1)) = (x0 (ix3 (0 : Fin 1) p (2 : Fin 4))) * (x0 (ix3 (0 : Fin 1) p (3 : Fin 4))) := by
  show k0_pay6 x0 (ix2 p (0 : Fin 1)) * k0_pay7 x0 (ix2 p (0 : Fin 1)) = _
  rw [pred2, pred3]

theorem gtLoX (x1 : Vec Ideal S256x4 .f32) (g : Fin 256) : k0_pay16 x1 (ix2 (0 : Fin 1) g) = lo (x1 (ix2 g (0 : Fin 4))) (x1 (ix2 g (2 : Fin 4))) := by
  show k0_pay8 x1 (ix2 (0 : Fin 1) g) - cHalf * k0_pay10 x1 (ix2 (0 : Fin 1) g) = _
  rw [gt0, gt2]; rfl
theorem gtLoY (x1 : Vec Ideal S256x4 .f32) (g : Fin 256) : k0_pay17 x1 (ix2 (0 : Fin 1) g) = lo (x1 (ix2 g (1 : Fin 4))) (x1 (ix2 g (3 : Fin 4))) := by
  show k0_pay9 x1 (ix2 (0 : Fin 1) g) - cHalf * k0_pay11 x1 (ix2 (0 : Fin 1) g) = _
  rw [gt1, gt3]; rfl
theorem gtHiX (x1 : Vec Ideal S256x4 .f32) (g : Fin 256) : k0_pay18 x1 (ix2 (0 : Fin 1) g) = hi (x1 (ix2 g (0 : Fin 4))) (x1 (ix2 g (2 : Fin 4))) := by
  show k0_pay8 x1 (ix2 (0 : Fin 1) g) + cHalf * k0_pay10 x1 (ix2 (0 : Fin 1) g) = _
  rw [gt0, gt2]; rfl
theorem gtHiY (x1 : Vec Ideal S256x4 .f32) (g : Fin 256) : k0_pay19 x1 (ix2 (0 : Fin 1) g) = hi (x1 (ix2 g (1 : Fin 4))) (x1 (ix2 g (3 : Fin 4))) := by
  show k0_pay9 x1 (ix2 (0 : Fin 1) g) + cHalf * k0_pay11 x1 (ix2 (0 : Fin 1) g) = _
  rw [gt1, gt3]; rfl

/-! ## The pointwise steps on the tile, over any columns and rows -/

section Tile
variable (a b c d : FVec Ideal S900x1 .f32) (e f r s : FVec Ideal S1x256 .f32) (p : Fin 900) (g : Fin 256)

/-- A column repeated over the tile reads its entry of the row; a row repeated reads its entry of the column. -/
theorem col_at : broadcastTo S900x256 a broadcasts_S900x1_S900x256 (ix2 p g) = a (ix2 p (0 : Fin 1)) :=
  Cert.Keepdims.broadcastTo_a1_ab_apply a broadcasts_S900x1_S900x256 p g
theorem row_at : broadcastTo S900x256 e broadcasts_S1x256_S900x256 (ix2 p g) = e (ix2 (0 : Fin 1) g) :=
  broadcastTo_1b_ab_apply e broadcasts_S1x256_S900x256 p g

/-- The L1 distance of the coordinates. -/
theorem l1_at : k0_pay21 a b c d e f r s (ix2 p g)
    = l1 (a (ix2 p (0 : Fin 1))) (b (ix2 p (0 : Fin 1))) (c (ix2 p (0 : Fin 1))) (d (ix2 p (0 : Fin 1))) (e (ix2 (0 : Fin 1) g)) (f (ix2 (0 : Fin 1) g)) (r (ix2 (0 : Fin 1) g)) (s (ix2 (0 : Fin 1) g)) := by
  show absE (broadcastTo S900x256 a broadcasts_S900x1_S900x256 (ix2 p g) - broadcastTo S900x256 e broadcasts_S1x256_S900x256 (ix2 p g))
      + absE (broadcastTo S900x256 b broadcasts_S900x1_S900x256 (ix2 p g) - broadcastTo S900x256 f broadcasts_S1x256_S900x256 (ix2 p g))
      + absE (broadcastTo S900x256 c broadcasts_S900x1_S900x256 (ix2 p g) - broadcastTo S900x256 r broadcasts_S1x256_S900x256 (ix2 p g))
      + absE (broadcastTo S900x256 d broadcasts_S900x1_S900x256 (ix2 p g) - broadcastTo S900x256 s broadcasts_S1x256_S900x256 (ix2 p g)) = _
  simp only [col_at, row_at]; rfl

/-- The intersection's area: the clipped overlaps on the two axes multiplied
    (columns: low x, low y, high x, high y of the prediction; rows: the same of the ground truth). -/
theorem inter_at : k0_pay22 a b c d e f r s (ix2 p g)
    = overlap (a (ix2 p (0 : Fin 1))) (c (ix2 p (0 : Fin 1))) (e (ix2 (0 : Fin 1) g)) (r (ix2 (0 : Fin 1) g)) * overlap (b (ix2 p (0 : Fin 1))) (d (ix2 p (0 : Fin 1))) (f (ix2 (0 : Fin 1) g)) (s (ix2 (0 : Fin 1) g)) := by
  show max cZero (min (broadcastTo S900x256 c broadcasts_S900x1_S900x256 (ix2 p g)) (broadcastTo S900x256 r broadcasts_S1x256_S900x256 (ix2 p g))
        - max (broadcastTo S900x256 a broadcasts_S900x1_S900x256 (ix2 p g)) (broadcastTo S900x256 e broadcasts_S1x256_S900x256 (ix2 p g)))
      * max cZero (min (broadcastTo S900x256 d broadcasts_S900x1_S900x256 (ix2 p g)) (broadcastTo S900x256 s broadcasts_S1x256_S900x256 (ix2 p g))
        - max (broadcastTo S900x256 b broadcasts_S900x1_S900x256 (ix2 p g)) (broadcastTo S900x256 f broadcasts_S1x256_S900x256 (ix2 p g))) = _
  simp only [col_at, row_at]; rfl

end Tile

section Tile2
variable (a b c d w : FVec Ideal S900x1 .f32) (e f r s u v : FVec Ideal S1x256 .f32) (p : Fin 900) (g : Fin 256)

/-- The union's area: the two areas (a column of products, and the product of two rows) added, less the intersection. -/
theorem union_at : k0_pay23 u v a b c d e f r s w (ix2 p g)
    = w (ix2 p (0 : Fin 1)) + u (ix2 (0 : Fin 1) g) * v (ix2 (0 : Fin 1) g) - k0_pay22 a b c d e f r s (ix2 p g) := by
  show (broadcastTo S900x256 w broadcasts_S900x1_S900x256 (ix2 p g)) + (broadcastTo S900x256 (mulf u v) broadcasts_S1x256_S900x256 (ix2 p g)) - k0_pay22 a b c d e f r s (ix2 p g) = _
  rw [col_at, row_at]; rfl

/-- The IoU: the intersection over the union. -/
theorem iou_at : k0_pay24 u v a b c d e f r s w (ix2 p g)
    = Ideal.div (k0_pay22 a b c d e f r s (ix2 p g)) (k0_pay23 u v a b c d e f r s w (ix2 p g)) := rfl

/-- The enclosing box's low and high y, and its extent along x before clipping. -/
theorem encLoY_at : k0_pay25 b f (ix2 p g) = min (b (ix2 p (0 : Fin 1))) (f (ix2 (0 : Fin 1) g)) := by
  show min (broadcastTo S900x256 b broadcasts_S900x1_S900x256 (ix2 p g)) (broadcastTo S900x256 f broadcasts_S1x256_S900x256 (ix2 p g)) = _
  rw [col_at, row_at]
theorem encHiY_at : k0_pay26 d s (ix2 p g) = max (d (ix2 p (0 : Fin 1))) (s (ix2 (0 : Fin 1) g)) := by
  show max (broadcastTo S900x256 d broadcasts_S900x1_S900x256 (ix2 p g)) (broadcastTo S900x256 s broadcasts_S1x256_S900x256 (ix2 p g)) = _
  rw [col_at, row_at]
theorem encX_at : k0_pay27 a c e r (ix2 p g) = max (c (ix2 p (0 : Fin 1))) (r (ix2 (0 : Fin 1) g)) - min (a (ix2 p (0 : Fin 1))) (e (ix2 (0 : Fin 1) g)) := by
  show max (broadcastTo S900x256 c broadcasts_S900x1_S900x256 (ix2 p g)) (broadcastTo S900x256 r broadcasts_S1x256_S900x256 (ix2 p g)) - min (broadcastTo S900x256 a broadcasts_S900x1_S900x256 (ix2 p g)) (broadcastTo S900x256 e broadcasts_S1x256_S900x256 (ix2 p g)) = _
  simp only [col_at, row_at]

end Tile2

/-- The stored tile from the six pointwise pieces: five times the L1 distance less twice
    (IoU less the enclosing box's excess over the union, relative to the enclosing box). -/
theorem stored_at (v64 v87 v88 v94 v100 v101 : FVec Ideal S900x256 .f32) (z : EReal) (p : Fin 900) (g : Fin 256) :
    k0_pay1 v64 v87 v88 v94 v100 v101 z (ix3 (0 : Fin 1) p g)
      = cFive * v64 (ix2 p g) - cTwo * (v88 (ix2 p g)
          - Ideal.div (max z (v101 (ix2 p g)) * max cZero (v100 (ix2 p g) - v94 (ix2 p g)) - v87 (ix2 p g))
              (max z (v101 (ix2 p g)) * max cZero (v100 (ix2 p g) - v94 (ix2 p g)))) := by
  unfold k0_pay1
  refine (shapeCast_ab_1ab_apply _ shapeCasts_S900x256_S1x900x256 (0 : Fin 1) p g).trans ?_
  rfl

/-- ONE ENTRY OF THE STORED TILE is the cost of row `p` of the prediction block against row `g` of the
    ground-truth block. -/
theorem tile_entry (x0 : Vec Ideal S1x900x4 .f32) (x1 : Vec Ideal S256x4 .f32) (p : Fin 900) (g : Fin 256) :
    k0_pay1 (k0_pay21 (k0_pay4 x0) (k0_pay5 x0) (k0_pay6 x0) (k0_pay7 x0) (k0_pay8 x1) (k0_pay9 x1) (k0_pay10 x1) (k0_pay11 x1)) (k0_pay23 (k0_pay10 x1) (k0_pay11 x1) (k0_pay12 x0) (k0_pay13 x0) (k0_pay14 x0) (k0_pay15 x0) (k0_pay16 x1) (k0_pay17 x1) (k0_pay18 x1) (k0_pay19 x1) (k0_pay20 x0)) (k0_pay24 (k0_pay10 x1) (k0_pay11 x1) (k0_pay12 x0) (k0_pay13 x0) (k0_pay14 x0) (k0_pay15 x0) (k0_pay16 x1) (k0_pay17 x1) (k0_pay18 x1) (k0_pay19 x1) (k0_pay20 x0)) (k0_pay25 (k0_pay13 x0) (k0_pay17 x1)) (k0_pay26 (k0_pay15 x0) (k0_pay19 x1)) (k0_pay27 (k0_pay12 x0) (k0_pay14 x0) (k0_pay16 x1) (k0_pay18 x1)) (Scalar.ofBits .f32 0x00000000#32) (ix3 (0 : Fin 1) p g)
      = costTiled (x0 (ix3 (0 : Fin 1) p (0 : Fin 4))) (x0 (ix3 (0 : Fin 1) p (1 : Fin 4))) (x0 (ix3 (0 : Fin 1) p (2 : Fin 4))) (x0 (ix3 (0 : Fin 1) p (3 : Fin 4))) (x1 (ix2 g (0 : Fin 4))) (x1 (ix2 g (1 : Fin 4))) (x1 (ix2 g (2 : Fin 4))) (x1 (ix2 g (3 : Fin 4))) := by
  rw [stored_at, l1_at, iou_at, union_at, inter_at, encLoY_at, encHiY_at, encX_at]
  rw [pred0, pred1, pred2, pred3, gt0, gt1, gt2, gt3, predLoX, predLoY, predHiX, predHiY, predArea, gtLoX, gtLoY, gtHiX, gtHiY]
  rfl

end Cert.TileEntry

end
-- ==== Proof.TileCover.lean ====
/-
  From the tiles to the whole array. Grid point `t` of the 16 × 7 grid stores tile `(b, 0, n)`: the `[1, 900, 256]`
  block of the `[16, 900, 1792]` array at batch `b` and column block `n`, computed from block `b` of the predictions
  and block `n` of the padded ground truth. So every tile is a block of ONE function of the two arrays,
  `costArray`: entry `(b, q, j)` is the cost of prediction `(b, q)` against padded ground-truth row `j`. The tiles
  cover the array, hence the array after the run is `costArray`.
-/
import proofs.«167534_j47588237639953_1_alg».proof.Proof.Gen.KernelIdeal.Frame
import proofs.«167534_j47588237639953_1_alg».proof.Proof.TileEntry

set_option maxRecDepth 16384

noncomputable section

namespace Cert.KernelIdeal.CostArray

open Idealize.ShloMosaic Idealize.ShloMosaic.TcCoe Idealize.SL.Sem Idealize.ShloMosaic.ValueIdx
open Cert.KernelIdeal Cert.KernelIdeal.Gen Cert.CostSpec
open Idealize.ShloMosaic.Pipeline (Dat)

variable (m : (ℓ : Loc nD τ sig) → Buf (Elt Ideal) ℓ) (ρ : Dev nD → PrngReg)

theorem hz3 : (![0, 0, 0] : Fin 3 → Nat) = fun _ => 0 := funext fun a => by fin_cases a <;> rfl
theorem hz2 : (![0, 0] : Fin 2 → Nat) = fun _ => 0 := funext fun a => by fin_cases a <;> rfl

/-- The padded cost array as a function of the prediction array and the padded ground-truth array. -/
def costArray (A : S16x900x4.Idx → EReal) (B : S1792x4.Idx → EReal) : S16x900x1792.Idx → EReal := fun i =>
  costTiled (A (ix3 (i 0) (i 1) (0 : Fin 4))) (A (ix3 (i 0) (i 1) (1 : Fin 4))) (A (ix3 (i 0) (i 1) (2 : Fin 4)))
    (A (ix3 (i 0) (i 1) (3 : Fin 4))) (B (ix2 (i 2) (0 : Fin 4))) (B (ix2 (i 2) (1 : Fin 4))) (B (ix2 (i 2) (2 : Fin 4)))
    (B (ix2 (i 2) (3 : Fin 4)))

/-- The printed index maps, decided over the grid: the prediction window follows the output's batch block, the
    ground-truth window the output's column block, and every other block index is zero. -/
theorem idx_facts : ∀ t : Fin cfg0.N, win0_0.index t (0 : Fin 3) = win0_2.index t (0 : Fin 3)
    ∧ win0_0.index t (1 : Fin 3) = 0 ∧ win0_0.index t (2 : Fin 3) = 0
    ∧ win0_1.index t (0 : Fin 2) = win0_2.index t (2 : Fin 3) ∧ win0_1.index t (1 : Fin 2) = 0
    ∧ win0_2.index t (1 : Fin 3) = 0 ∧ win0_2.index t (0 : Fin 3) < 16 ∧ win0_2.index t (2 : Fin 3) < 7 :=
  (by decide +kernel : ∀ t : Fin grid0.N, _)

/-- Every tile position is some grid point's. -/
theorem idx_onto : ∀ (q0 : Fin 16) (q2 : Fin 7), ∃ t : Fin cfg0.N, win0_2.index t = ![q0.val, 0, q2.val] :=
  (by decide +kernel : ∀ (q0 : Fin 16) (q2 : Fin 7), ∃ t : Fin grid0.N, win0_2.index t = ![q0.val, 0, q2.val])

/-- Two costs are equal when their eight coordinates are. -/
theorem costTiled_congr {a0 a1 a2 a3 b0 b1 b2 b3 a0' a1' a2' a3' b0' b1' b2' b3' : EReal}
    (h0 : a0 = a0') (h1 : a1 = a1') (h2 : a2 = a2') (h3 : a3 = a3') (g0 : b0 = b0') (g1 : b1 = b1') (g2 : b2 = b2') (g3 : b3 = b3') :
    costTiled a0 a1 a2 a3 b0 b1 b2 b3 = costTiled a0' a1' a2' a3' b0' b1' b2' b3' := by
  subst h0 h1 h2 h3 g0 g1 g2 g3; rfl

/-- An entry of the stored tile at any index of the tile's shape. -/
theorem tile_entry_at (x0 : Vec Ideal S1x900x4 .f32) (x1 : Vec Ideal S256x4 .f32) (y : S1x900x256.Idx) :
    k0_pay1 (k0_pay21 (k0_pay4 x0) (k0_pay5 x0) (k0_pay6 x0) (k0_pay7 x0) (k0_pay8 x1) (k0_pay9 x1) (k0_pay10 x1) (k0_pay11 x1)) (k0_pay23 (k0_pay10 x1) (k0_pay11 x1) (k0_pay12 x0) (k0_pay13 x0) (k0_pay14 x0) (k0_pay15 x0) (k0_pay16 x1) (k0_pay17 x1) (k0_pay18 x1) (k0_pay19 x1) (k0_pay20 x0)) (k0_pay24 (k0_pay10 x1) (k0_pay11 x1) (k0_pay12 x0) (k0_pay13 x0) (k0_pay14 x0) (k0_pay15 x0) (k0_pay16 x1) (k0_pay17 x1) (k0_pay18 x1) (k0_pay19 x1) (k0_pay20 x0)) (k0_pay25 (k0_pay13 x0) (k0_pay17 x1)) (k0_pay26 (k0_pay15 x0) (k0_pay19 x1)) (k0_pay27 (k0_pay12 x0) (k0_pay14 x0) (k0_pay16 x1) (k0_pay18 x1)) (Scalar.ofBits .f32 0x00000000#32) y
      = costTiled (x0 (ix3 (0 : Fin 1) (y 1) (0 : Fin 4))) (x0 (ix3 (0 : Fin 1) (y 1) (1 : Fin 4))) (x0 (ix3 (0 : Fin 1) (y 1) (2 : Fin 4))) (x0 (ix3 (0 : Fin 1) (y 1) (3 : Fin 4))) (x1 (ix2 (y 2) (0 : Fin 4))) (x1 (ix2 (y 2) (1 : Fin 4))) (x1 (ix2 (y 2) (2 : Fin 4))) (x1 (ix2 (y 2) (3 : Fin 4))) := by
  obtain ⟨u, p, g, rfl⟩ : ∃ (u : Fin 1) (p : Fin 900) (g : Fin 256), y = ix3 u p g := ⟨y 0, y 1, y 2, eq_ix3 y⟩
  obtain rfl : u = 0 := Subsingleton.elim _ _
  exact Cert.TileEntry.tile_entry x0 x1 p g

/-- Row `(0, y₁)` of the prediction block at point `t` is row `(i₀, i₁)` of the prediction array, where `i` is the
    array index the output tile's entry `y` lands on: the block is batch `i₀` whole. -/
theorem pred_read (c : Dev nD) (t : Fin cfg0.N) (y : S1x900x256.Idx) (k : Fin 4) (i : S16x900x1792.Idx)
    (h0 : (i 0).val = win0_2.index t (0 : Fin 3) * 1 + 1 * (y 0).val)
    (h1 : (i 1).val = win0_2.index t (1 : Fin 3) * 900 + 1 * (y 1).val) :
    (iblk m c 0 t : Vec Ideal S1x900x4 .f32) (ix3 (0 : Fin 1) (y 1) k)
      = (V m c main_arg0 : S16x900x4.Idx → EReal) (ix3 (i 0) (i 1) k) := by
  obtain ⟨e0, e1, e2, e3, e4, e5, e6, e7⟩ := idx_facts t
  show (V m c main_arg0 : S16x900x4.Idx → EReal) (((cfg0.win 0).blk t).view.emb (ix3 (0 : Fin 1) (y 1) k)) = _
  refine congrArg (V m c main_arg0 : S16x900x4.Idx → EReal) (funext fun a => Fin.ext ?_)
  have hy0 : (y 0).val < 1 := (y 0).isLt
  match a with
  | ⟨0, _⟩ => show win0_0.index t (0 : Fin 3) * 1 + 1 * 0 = (i 0).val; omega
  | ⟨1, _⟩ => show win0_0.index t (1 : Fin 3) * 900 + 1 * (y 1).val = (i 1).val; omega
  | ⟨2, _⟩ => show win0_0.index t (2 : Fin 3) * 4 + 1 * k.val = k.val; omega

/-- Row `y₂` of the padded ground-truth block at point `t` is row `i₂` of the padded ground-truth array. -/
theorem gt_read (c : Dev nD) (t : Fin cfg0.N) (y : S1x900x256.Idx) (k : Fin 4) (i : S16x900x1792.Idx)
    (h2 : (i 2).val = win0_2.index t (2 : Fin 3) * 256 + 1 * (y 2).val) :
    (iblk m c 1 t : Vec Ideal S256x4 .f32) (ix2 (y 2) k)
      = (V m c main_v0 : S1792x4.Idx → EReal) (ix2 (i 2) k) := by
  obtain ⟨e0, e1, e2, e3, e4, e5, e6, e7⟩ := idx_facts t
  show (V m c main_v0 : S1792x4.Idx → EReal) (((cfg0.win 1).blk t).view.emb (ix2 (y 2) k)) = _
  refine congrArg (V m c main_v0 : S1792x4.Idx → EReal) (funext fun a => Fin.ext ?_)
  match a with
  | ⟨0, _⟩ => show win0_1.index t (0 : Fin 2) * 256 + 1 * (y 2).val = (i 2).val; omega
  | ⟨1, _⟩ => show win0_1.index t (1 : Fin 2) * 4 + 1 * k.val = k.val; omega

/-- WHAT POINT `t` WRITES BACK is block `t` of `costArray` of the two arrays as the region finds them. -/
theorem flushed_eq (c : Dev nD) (t : Fin cfg0.N) :
    (dats m 0 c).flushed 2 t
      = ((cfg0.win 2).blk t).view.read (Elt Ideal) (costArray (V m c main_arg0) (V m c main_v0)) := by
  show (cfg0.win 2).cut (grid0.coords t) ((dats m 0 c).after 2 t) = _
  rw [after0_2]
  unfold out0_2
  rw [View.canon_unit_zero hz3]
  simp only [View.ld_unit_zero (S := S1x900x4) hz3, View.ld_unit_zero (S := S256x4) hz2]
  funext j
  refine (tile_entry_at (iblk m c 0 t) (iblk m c 1 t) j).trans ?_
  show _ = costArray (V m c main_arg0) (V m c main_v0) (((cfg0.win 2).blk t).view.emb j)
  exact costTiled_congr
    (pred_read m c t j 0 (((cfg0.win 2).blk t).view.emb j) rfl rfl)
    (pred_read m c t j 1 (((cfg0.win 2).blk t).view.emb j) rfl rfl)
    (pred_read m c t j 2 (((cfg0.win 2).blk t).view.emb j) rfl rfl)
    (pred_read m c t j 3 (((cfg0.win 2).blk t).view.emb j) rfl rfl)
    (gt_read m c t j 0 (((cfg0.win 2).blk t).view.emb j) rfl)
    (gt_read m c t j 1 (((cfg0.win 2).blk t).view.emb j) rfl)
    (gt_read m c t j 2 (((cfg0.win 2).blk t).view.emb j) rfl)
    (gt_read m c t j 3 (((cfg0.win 2).blk t).view.emb j) rfl)

/-- An index of the array is in point `t`'s block iff each coordinate is in the block's range on its axis. -/
theorem mem_blk (t : Fin cfg0.N) (i : S16x900x1792.Idx) :
    i ∈ ((cfg0.win 2).blk t).view.set ↔ ∀ a : Fin 3, win0_2.index t a * S1x900x256.size a ≤ (i a).val
      ∧ (i a).val < win0_2.index t a * S1x900x256.size a + S1x900x256.size a := by
  show i ∈ ((View.whole main_v1).slice (win0_2.rect t)).set ↔ _
  rw [View.set_slice_whole, Rect.mem_set_unit]
  exact Iff.rfl

/-- The tiles cover the array: index `(b, q, j)` is in the tile of batch `b` and column block `j / 256`. -/
theorem cover (i : S16x900x1792.Idx) :
    ∃ t : Fin cfg0.N, (cfg0.win 2).flush t = true ∧ i ∈ ((cfg0.win 2).blk t).view.set := by
  have hi0 : (i 0).val < 16 := (i 0).isLt
  have hi1 : (i 1).val < 900 := (i 1).isLt
  have hi2 : (i 2).val < 1792 := (i 2).isLt
  obtain ⟨t, ht⟩ := idx_onto ⟨(i 0).val, hi0⟩ ⟨(i 2).val / 256, by omega⟩
  have q0 : win0_2.index t (0 : Fin 3) = (i 0).val := congrFun ht 0
  have q1 : win0_2.index t (1 : Fin 3) = 0 := congrFun ht 1
  have q2 : win0_2.index t (2 : Fin 3) = (i 2).val / 256 := congrFun ht 2
  refine ⟨t, flush0_2 t, ?_⟩
  rw [mem_blk]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 900 ≤ (i 1).val ∧ (i 1).val < win0_2.index t (1 : Fin 3) * 900 + 900; omega
  | ⟨2, _⟩ => show win0_2.index t (2 : Fin 3) * 256 ≤ (i 2).val ∧ (i 2).val < win0_2.index t (2 : Fin 3) * 256 + 256; omega

/-- THE ARRAY after the run is `costArray` of the two arrays as the region finds them. -/
theorem final (c : Dev nD) :
    (dats m 0 c).arrAt 2 cfg0.N = costArray (V m c main_arg0) (V m c main_v0) :=
  (dats m 0 c).arrAt_eq_of_cover 2 (costArray (V m c main_arg0) (V m c main_v0)) (fun t _ => flushed_eq m c t) cover

end Cert.KernelIdeal.CostArray

end
-- ==== Proof.CostRun.lean ====
/-
  The kernel program's result as a function of its two arguments. Before the grid the ground truth `[1600, 4]` is
  padded with 192 zero rows to `[1792, 4]`; after it the `[16, 900, 1792]` cost array is cut back to its first 1600
  columns. A kept column `j < 1600` reads padded row `j`, which is ground-truth row `j`: so entry `(b, q, j)` of
  the result is the cost of prediction `(b, q)` against ground-truth row `j`, and the padding rows never show.
-/
import proofs.«167534_j47588237639953_1_alg».proof.Proof.TileCover
import Idealize.ShloMosaic.Lib.KernelVsHost
import Idealize.ShloMosaic.Lib.StableHlo.Run

set_option maxRecDepth 16384

noncomputable section

namespace Cert.KernelIdeal.CostArray

open Idealize.ShloMosaic Idealize.ShloMosaic.TcCoe Idealize.SL.Sem Idealize.ShloMosaic.ValueIdx
open Cert.KernelIdeal Cert.KernelIdeal.Gen Cert.CostSpec
open Idealize.ShloMosaic.Pipeline (Dat)

variable (m : (ℓ : Loc nD τ sig) → Buf (Elt Ideal) ℓ) (ρ : Dev nD → PrngReg)

/-- The ground-truth window's array, as the region finds it, is the padded ground truth. -/
theorem padded_eq (c : Dev nD) :
    (V m c main_v0 : S1792x4.Idx → EReal)
      = pad S1792x4 ![0, 0] ![192, 0] ![0, 0] (m ((c : Thread nD τ).loc main_arg1) : S1600x4.Idx → EReal)
          (sitofp (F := Ideal) .f32 (constantI S_ 32 0#32)) pads_S1600x4_S1792x4_01920_000 h_S_ := by
  dsimp only [V, V0]
  simp only [hostOps0, hostOps0_1, List.flatten_cons, List.flatten_nil, List.append_nil, List.cons_append, List.nil_append]
  after_results
  rfl

/-- A row of the padded ground truth below row 1600 is that row of the ground truth. -/
theorem padded_row (c : Dev nD) (n : Fin 1792) (hn : n.val < 1600) (k : Fin 4) :
    (V m c main_v0 : S1792x4.Idx → EReal) (ix2 n k)
      = (m ((c : Thread nD τ).loc main_arg1) : S1600x4.Idx → EReal) (ix2 (⟨n.val, hn⟩ : Fin 1600) k) := by
  rw [padded_eq]
  refine pad_apply_of_inside _ _ _ _ _ _ _ (ix2 n k) (ix2 (⟨n.val, hn⟩ : Fin 1600) k) fun a => ?_
  match a with
  | ⟨0, _⟩ => show n.val = 0 + n.val * (0 + 1); omega
  | ⟨1, _⟩ => show k.val = 0 + k.val * (0 + 1); omega

/-- The program's result array: the host's slice of the cost array the grid leaves. -/
theorem tail_eq (c : Dev nD) :
    Pipeline.afterTail₀ cfgs (dats m) 0 (V0 m) [hostOps1] c main_v2
      = extractStridedSlice S16x900x1600 ![0, 0, 0] ((dats m 0 c).arrAt 2 cfg0.N) slices_S16x900x1792_S16x900x1600_0_0_0 := by
  unfold Pipeline.afterTail₀
  show StableHlo.after hostOps1 _ (Proc.devRef .tc main_v2) = _
  after_results
  exact congrArg (fun X : S16x900x1792.Idx → EReal => extractStridedSlice S16x900x1600 ![0, 0, 0] X slices_S16x900x1792_S16x900x1600_0_0_0)
    (Pipeline.withArrays_arr spec0 launch0.win.arr_inj c (V0 m c) (fun w => (dats m 0 c).arrAt w cfg0.N) 2)

/-- The program's result as a function of its two arguments: entry `(b, q, j)` is the cost of prediction `(b, q)`
    against ground-truth row `j`. -/
def costResult (A : S16x900x4.Idx → EReal) (B : S1600x4.Idx → EReal) : S16x900x1600.Idx → EReal := fun i =>
  costTiled (A (ix3 (i 0) (i 1) (0 : Fin 4))) (A (ix3 (i 0) (i 1) (1 : Fin 4))) (A (ix3 (i 0) (i 1) (2 : Fin 4))) (A (ix3 (i 0) (i 1) (3 : Fin 4))) (B (ix2 (i 2) (0 : Fin 4))) (B (ix2 (i 2) (1 : Fin 4))) (B (ix2 (i 2) (2 : Fin 4))) (B (ix2 (i 2) (3 : Fin 4)))

/-- The result array is `costResult` of the arguments as launched: a kept column reads an unpadded row. -/
theorem result_eq (c : Dev nD) :
    Pipeline.afterTail₀ cfgs (dats m) 0 (V0 m) [hostOps1] c main_v2
      = costResult (m ((c : Thread nD τ).loc main_arg0)) (m ((c : Thread nD τ).loc main_arg1)) := by
  rw [tail_eq, final]
  funext i
  have hi2 : (i 2).val < 1600 := (i 2).isLt
  refine (extractStridedSlice_apply ![0, 0, 0] _ slices_S16x900x1792_S16x900x1600_0_0_0 i
    (ix3 (i 0) (i 1) (⟨(i 2).val, by omega⟩ : Fin 1792)) (fun a => ?_)).trans ?_
  · match a with
    | ⟨0, _⟩ => exact (Nat.zero_add _).symm
    | ⟨1, _⟩ => exact (Nat.zero_add _).symm
    | ⟨2, _⟩ => exact (Nat.zero_add _).symm
  · exact costTiled_congr
      (congrFun (V_main_arg0 m c) (ix3 (i 0) (i 1) (0 : Fin 4)))
      (congrFun (V_main_arg0 m c) (ix3 (i 0) (i 1) (1 : Fin 4)))
      (congrFun (V_main_arg0 m c) (ix3 (i 0) (i 1) (2 : Fin 4)))
      (congrFun (V_main_arg0 m c) (ix3 (i 0) (i 1) (3 : Fin 4)))
      (padded_row m c (⟨(i 2).val, by omega⟩ : Fin 1792) hi2 0)
      (padded_row m c (⟨(i 2).val, by omega⟩ : Fin 1792) hi2 1)
      (padded_row m c (⟨(i 2).val, by omega⟩ : Fin 1792) hi2 2)
      (padded_row m c (⟨(i 2).val, by omega⟩ : Fin 1792) hi2 3)

set_option backward.isDefEq.respectTransparency.types false in
/-- THE RUN of the idealized kernel program: it terminates with its result array at `costResult` of the arguments,
    the arguments unchanged. -/
theorem run : θ_run defs (onTc (τ := τ) (main (F := Ideal))) ⟨m, fun _ => 0, ρ⟩ fun r => ∀ c : Dev nD,
      r.2.mem ((c.tc : Thread nD τ).loc main_v2)
        = costResult (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
    ⟨((h c).2 main_v2 (Pipeline.mem_restRefs_of main_v2 (by decide) (by decide))).trans (result_eq m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c)⟩)
    (run_main m ρ)

end Cert.KernelIdeal.CostArray

end
-- ==== Proof.Distance.lean ====
/-
  The L1 distance of a prediction row and a ground-truth row, read at a pair (r, j): both arrays
  are broadcast to [14400, 1600, 4], subtracted, passed through the absolute value, and summed
  over the coordinate axis, the sum started at the zero word. At the ideal instance that sum is
  the zero word plus the four absolute differences added in coordinate order.
-/
import proofs.«167534_j47588237639953_1_alg».proof.Proof.Gen.ReferenceIdeal.Read
import proofs.«167534_j47588237639953_1_alg».proof.Proof.CostSpec
import Idealize.ShloMosaic.Lib.ValueIdx

noncomputable section

namespace Cert.DenseRead

open Idealize.ShloMosaic Idealize.ShloMosaic.ValueIdx Cert.ReferenceIdeal Cert.ReferenceIdeal.Read Cert.CostSpec

variable (x0 : (⟨S16x900x4, .f32⟩ : BufTy).Contents (Elt Ideal))
variable (x1 : (⟨S1600x4, .f32⟩ : BufTy).Contents (Elt Ideal))

/-- The prediction rows broadcast along the ground-truth axis. -/
theorem pred_pair_at (r : Fin 14400) (j : Fin 1600) (k : Fin 4) :
    val_main_v3 (F := Ideal) x0 (ix3 r j k) = val_main_v0 (F := Ideal) x0 (ix2 r k) := by
  rw [val_main_v3_apply, val_main_v1_apply]
  exact congrArg _ (funext fun a => Fin.ext (by match a with | ⟨0, _⟩ => rfl | ⟨1, _⟩ => rfl))

/-- The ground-truth rows broadcast along the prediction axis. -/
theorem truth_pair_at (r : Fin 14400) (j : Fin 1600) (k : Fin 4) :
    val_main_v4 (F := Ideal) x1 (ix3 r j k) = x1 (ix2 j k) := by
  rw [val_main_v4_apply, val_main_v2_apply]
  exact congrArg _ (funext fun a => Fin.ext (by match a with | ⟨0, _⟩ => rfl | ⟨1, _⟩ => rfl))

/-- One absolute coordinate difference. -/
theorem absdiff_at (r : Fin 14400) (j : Fin 1600) (k : Fin 4) :
    val_main_v6 (F := Ideal) x0 x1 (ix3 r j k)
      = absE (val_main_v0 (F := Ideal) x0 (ix2 r k) - x1 (ix2 j k)) := by
  rw [val_main_v6_apply, val_main_v5_apply, pred_pair_at, truth_pair_at]
  rfl

/-- The summed axis' index at a literal coordinate. -/
theorem sum_idx_at (r : Fin 14400) (j : Fin 1600) (k : Fin 4) :
    idx_main_v7 (ix2 r j) k = ix3 r j k :=
  funext fun a => Fin.ext (by match a with | ⟨0, _⟩ => rfl | ⟨1, _⟩ => rfl | ⟨2, _⟩ => rfl)

/-- The L1 distance of prediction row r and ground-truth row j, the sum started at the zero word. -/
theorem l1_at (r : Fin 14400) (j : Fin 1600) :
    val_main_v7 (F := Ideal) x0 x1 (ix2 r j)
      = cZero + l1 (val_main_v0 (F := Ideal) x0 (ix2 r 0)) (val_main_v0 (F := Ideal) x0 (ix2 r 1))
          (val_main_v0 (F := Ideal) x0 (ix2 r 2)) (val_main_v0 (F := Ideal) x0 (ix2 r 3))
          (x1 (ix2 j 0)) (x1 (ix2 j 1)) (x1 (ix2 j 2)) (x1 (ix2 j 3)) := by
  rw [val_main_v7_apply, Fin.sum_univ_four, sum_idx_at, sum_idx_at, sum_idx_at, sum_idx_at,
    absdiff_at, absdiff_at, absdiff_at, absdiff_at]
  rfl

end Cert.DenseRead

end
-- ==== Proof.JoinColumns.lean ====
/-
  Four one-column arrays [n, 1] joined along axis 1 into an array [n, 4], read at a row r and at
  each of the four literal columns k = 0, 1, 2, 3: the element is the k-th piece's element of
  row r (its only column). The joined axis has extents 1, 1, 1, 1, so column k lies in piece k
  at offset k - k = 0; off the joined axis the coordinates are kept.
-/
import Idealize.ShloMosaic.Lib.Pipeline.Value
import Idealize.ShloMosaic.Lib.ValueIdx

noncomputable section

namespace Cert.DenseRead

open Idealize.ShloMosaic Idealize.ShloMosaic.ValueIdx

/-- Column 0 of the join is the first piece. -/
theorem join4_at0 {n : Nat} {α : Type} (y0 y1 y2 y3 : (⟨2, ![n, 1]⟩ : Shape).Idx → α)
    (h : Shape.Concatenates ([⟨⟨2, ![n, 1]⟩, y0⟩, ⟨⟨2, ![n, 1]⟩, y1⟩, ⟨⟨2, ![n, 1]⟩, y2⟩, ⟨⟨2, ![n, 1]⟩, y3⟩].map
      (·.1 : ((s : Shape) × (s.Idx → α)) → Shape)) ⟨2, ![n, 4]⟩ 1) (r : Fin n) :
    concatenate ⟨2, ![n, 4]⟩ 1 [⟨⟨2, ![n, 1]⟩, y0⟩, ⟨⟨2, ![n, 1]⟩, y1⟩, ⟨⟨2, ![n, 1]⟩, y2⟩, ⟨⟨2, ![n, 1]⟩, y3⟩] h (ix2 r (0 : Fin 4))
      = y0 (ix2 r (0 : Fin 1)) :=
  concatenate_apply_piece (t := ⟨2, ![n, 4]⟩) (a := 1) _ h (ix2 r (0 : Fin 4)) 0 (by show (0 : Nat) < 4; decide) ⟨2, ![n, 1]⟩ y0 rfl rfl 0 rfl
    (ix2 r (0 : Fin 1)) (fun b hb => by match b with | ⟨0, _⟩ => rfl | ⟨1, _⟩ => exact absurd rfl hb) rfl

/-- Column 1 of the join is the second piece. -/
theorem join4_at1 {n : Nat} {α : Type} (y0 y1 y2 y3 : (⟨2, ![n, 1]⟩ : Shape).Idx → α)
    (h : Shape.Concatenates ([⟨⟨2, ![n, 1]⟩, y0⟩, ⟨⟨2, ![n, 1]⟩, y1⟩, ⟨⟨2, ![n, 1]⟩, y2⟩, ⟨⟨2, ![n, 1]⟩, y3⟩].map
      (·.1 : ((s : Shape) × (s.Idx → α)) → Shape)) ⟨2, ![n, 4]⟩ 1) (r : Fin n) :
    concatenate ⟨2, ![n, 4]⟩ 1 [⟨⟨2, ![n, 1]⟩, y0⟩, ⟨⟨2, ![n, 1]⟩, y1⟩, ⟨⟨2, ![n, 1]⟩, y2⟩, ⟨⟨2, ![n, 1]⟩, y3⟩] h (ix2 r (1 : Fin 4))
      = y1 (ix2 r (0 : Fin 1)) :=
  concatenate_apply_piece (t := ⟨2, ![n, 4]⟩) (a := 1) _ h (ix2 r (1 : Fin 4)) 1 (by show (1 : Nat) < 4; decide) ⟨2, ![n, 1]⟩ y1 rfl rfl 1 rfl
    (ix2 r (0 : Fin 1)) (fun b hb => by match b with | ⟨0, _⟩ => rfl | ⟨1, _⟩ => exact absurd rfl hb) rfl

/-- Column 2 of the join is the third piece. -/
theorem join4_at2 {n : Nat} {α : Type} (y0 y1 y2 y3 : (⟨2, ![n, 1]⟩ : Shape).Idx → α)
    (h : Shape.Concatenates ([⟨⟨2, ![n, 1]⟩, y0⟩, ⟨⟨2, ![n, 1]⟩, y1⟩, ⟨⟨2, ![n, 1]⟩, y2⟩, ⟨⟨2, ![n, 1]⟩, y3⟩].map
      (·.1 : ((s : Shape) × (s.Idx → α)) → Shape)) ⟨2, ![n, 4]⟩ 1) (r : Fin n) :
    concatenate ⟨2, ![n, 4]⟩ 1 [⟨⟨2, ![n, 1]⟩, y0⟩, ⟨⟨2, ![n, 1]⟩, y1⟩, ⟨⟨2, ![n, 1]⟩, y2⟩, ⟨⟨2, ![n, 1]⟩, y3⟩] h (ix2 r (2 : Fin 4))
      = y2 (ix2 r (0 : Fin 1)) :=
  concatenate_apply_piece (t := ⟨2, ![n, 4]⟩) (a := 1) _ h (ix2 r (2 : Fin 4)) 2 (by show (2 : Nat) < 4; decide) ⟨2, ![n, 1]⟩ y2 rfl rfl 2 rfl
    (ix2 r (0 : Fin 1)) (fun b hb => by match b with | ⟨0, _⟩ => rfl | ⟨1, _⟩ => exact absurd rfl hb) rfl

/-- Column 3 of the join is the fourth piece. -/
theorem join4_at3 {n : Nat} {α : Type} (y0 y1 y2 y3 : (⟨2, ![n, 1]⟩ : Shape).Idx → α)
    (h : Shape.Concatenates ([⟨⟨2, ![n, 1]⟩, y0⟩, ⟨⟨2, ![n, 1]⟩, y1⟩, ⟨⟨2, ![n, 1]⟩, y2⟩, ⟨⟨2, ![n, 1]⟩, y3⟩].map
      (·.1 : ((s : Shape) × (s.Idx → α)) → Shape)) ⟨2, ![n, 4]⟩ 1) (r : Fin n) :
    concatenate ⟨2, ![n, 4]⟩ 1 [⟨⟨2, ![n, 1]⟩, y0⟩, ⟨⟨2, ![n, 1]⟩, y1⟩, ⟨⟨2, ![n, 1]⟩, y2⟩, ⟨⟨2, ![n, 1]⟩, y3⟩] h (ix2 r (3 : Fin 4))
      = y3 (ix2 r (0 : Fin 1)) :=
  concatenate_apply_piece (t := ⟨2, ![n, 4]⟩) (a := 1) _ h (ix2 r (3 : Fin 4)) 3 (by show (3 : Nat) < 4; decide) ⟨2, ![n, 1]⟩ y3 rfl rfl 3 rfl
    (ix2 r (0 : Fin 1)) (fun b hb => by match b with | ⟨0, _⟩ => rfl | ⟨1, _⟩ => exact absurd rfl hb) rfl

end Cert.DenseRead

end
-- ==== Proof.PredBox.lean ====
/-
  The prediction side of the dense cost, read at an index. The predictions [16, 900, 4] are
  flattened to rows [14400, 4]; each row (cx, cy, w, h) is turned into the corner form
  (cx - w/2, cy - h/2, cx + w/2, cy + h/2) by four column reads, four half-width products and a
  four-column join; the row's area is the product of the two corner differences. Every lemma
  reads one of those arrays at a row r (and, for the copies broadcast against the ground-truth
  rows, at a pair (r, j)) in terms of the flattened row's four coordinates.
-/
import proofs.«167534_j47588237639953_1_alg».proof.Proof.Gen.ReferenceIdeal.Read
import proofs.«167534_j47588237639953_1_alg».proof.Proof.CostSpec
import proofs.«167534_j47588237639953_1_alg».proof.Proof.JoinColumns
import Idealize.ShloMosaic.Lib.ValueIdx

noncomputable section

namespace Cert.DenseRead

open Idealize.ShloMosaic Idealize.ShloMosaic.ValueIdx Cert.ReferenceIdeal Cert.ReferenceIdeal.Read Cert.CostSpec

variable (x0 : (⟨S16x900x4, .f32⟩ : BufTy).Contents (Elt Ideal))

/-- The flat row number of prediction q of batch b. -/
def row (b : Fin 16) (q : Fin 900) : Fin 14400 :=
  ⟨b.val * 900 + q.val, by have hb := b.isLt; have hq := q.isLt; omega⟩

/-- The flattened predictions at row b * 900 + q are the predictions at (b, q). -/
theorem flat_at (b : Fin 16) (q : Fin 900) (c : Fin 4) :
    val_main_v0 (F := Ideal) x0 (ix2 (row b q) c) = x0 (ix3 b q c) := by
  have hb := b.isLt; have hq := q.isLt; have hc := c.isLt
  rw [val_main_v0_apply]
  exact congrArg _ (funext fun a => Fin.ext (by
    match a with
    | ⟨0, _⟩ => show ((b.val * 900 + q.val) * 4 + c.val) / 3600 = b.val; omega
    | ⟨1, _⟩ => show ((b.val * 900 + q.val) * 4 + c.val) / 4 % 900 = q.val; omega
    | ⟨2, _⟩ => show ((b.val * 900 + q.val) * 4 + c.val) % 4 = c.val; omega))

/-! ## The four coordinate columns of the flattened predictions -/

theorem pcol0_at (r : Fin 14400) :
    val_main_v9 (F := Ideal) x0 (ix1 r) = val_main_v0 (F := Ideal) x0 (ix2 r 0) := by
  rw [val_main_v9_apply, val_main_v8_apply]
  exact congrArg _ (funext fun a => Fin.ext (by match a with | ⟨0, _⟩ => exact Nat.div_one _ | ⟨1, _⟩ => rfl))

theorem pcol1_at (r : Fin 14400) :
    val_main_v11 (F := Ideal) x0 (ix1 r) = val_main_v0 (F := Ideal) x0 (ix2 r 1) := by
  rw [val_main_v11_apply, val_main_v10_apply]
  exact congrArg _ (funext fun a => Fin.ext (by match a with | ⟨0, _⟩ => exact Nat.div_one _ | ⟨1, _⟩ => rfl))

theorem pcol2_at (r : Fin 14400) :
    val_main_v13 (F := Ideal) x0 (ix1 r) = val_main_v0 (F := Ideal) x0 (ix2 r 2) := by
  rw [val_main_v13_apply, val_main_v12_apply]
  exact congrArg _ (funext fun a => Fin.ext (by match a with | ⟨0, _⟩ => exact Nat.div_one _ | ⟨1, _⟩ => rfl))

theorem pcol3_at (r : Fin 14400) :
    val_main_v15 (F := Ideal) x0 (ix1 r) = val_main_v0 (F := Ideal) x0 (ix2 r 3) := by
  rw [val_main_v15_apply, val_main_v14_apply]
  exact congrArg _ (funext fun a => Fin.ext (by match a with | ⟨0, _⟩ => exact Nat.div_one _ | ⟨1, _⟩ => rfl))

/-! ## The four broadcast copies of the word one half -/

theorem phalf0_at (r : Fin 14400) : val_main_v16 (F := Ideal) (ix1 r) = cHalf := by
  rw [val_main_v16_apply]; rfl
theorem phalf1_at (r : Fin 14400) : val_main_v19 (F := Ideal) (ix1 r) = cHalf := by
  rw [val_main_v19_apply]; rfl
theorem phalf2_at (r : Fin 14400) : val_main_v22 (F := Ideal) (ix1 r) = cHalf := by
  rw [val_main_v22_apply]; rfl
theorem phalf3_at (r : Fin 14400) : val_main_v25 (F := Ideal) (ix1 r) = cHalf := by
  rw [val_main_v25_apply]; rfl

/-! ## The four corners of row r -/

/-- The low x corner: cx - w/2. -/
theorem plo_x_at (r : Fin 14400) :
    val_main_v18 (F := Ideal) x0 (ix1 r)
      = lo (val_main_v0 (F := Ideal) x0 (ix2 r 0)) (val_main_v0 (F := Ideal) x0 (ix2 r 2)) := by
  rw [val_main_v18_apply, val_main_v17_apply, pcol0_at, pcol2_at, phalf0_at]
  rfl

/-- The low y corner: cy - h/2. -/
theorem plo_y_at (r : Fin 14400) :
    val_main_v21 (F := Ideal) x0 (ix1 r)
      = lo (val_main_v0 (F := Ideal) x0 (ix2 r 1)) (val_main_v0 (F := Ideal) x0 (ix2 r 3)) := by
  rw [val_main_v21_apply, val_main_v20_apply, pcol1_at, pcol3_at, phalf1_at]
  rfl

/-- The high x corner: cx + w/2. -/
theorem phi_x_at (r : Fin 14400) :
    val_main_v24 (F := Ideal) x0 (ix1 r)
      = hi (val_main_v0 (F := Ideal) x0 (ix2 r 0)) (val_main_v0 (F := Ideal) x0 (ix2 r 2)) := by
  rw [val_main_v24_apply, val_main_v23_apply, pcol0_at, pcol2_at, phalf2_at]
  rfl

/-- The high y corner: cy + h/2. -/
theorem phi_y_at (r : Fin 14400) :
    val_main_v27 (F := Ideal) x0 (ix1 r)
      = hi (val_main_v0 (F := Ideal) x0 (ix2 r 1)) (val_main_v0 (F := Ideal) x0 (ix2 r 3)) := by
  rw [val_main_v27_apply, val_main_v26_apply, pcol1_at, pcol3_at, phalf3_at]
  rfl

/-! ## The corner form [14400, 4]: the four corners as columns, joined -/

theorem pbox0_at (r : Fin 14400) :
    val_main_v32 (F := Ideal) x0 (ix2 r 0)
      = lo (val_main_v0 (F := Ideal) x0 (ix2 r 0)) (val_main_v0 (F := Ideal) x0 (ix2 r 2)) := by
  unfold val_main_v32
  refine (join4_at0 _ _ _ _ _ r).trans ?_
  rw [val_main_v28_apply, ← plo_x_at]
  exact congrArg _ (funext fun a => Fin.ext (by match a with | ⟨0, _⟩ => rfl))

theorem pbox1_at (r : Fin 14400) :
    val_main_v32 (F := Ideal) x0 (ix2 r 1)
      = lo (val_main_v0 (F := Ideal) x0 (ix2 r 1)) (val_main_v0 (F := Ideal) x0 (ix2 r 3)) := by
  unfold val_main_v32
  refine (join4_at1 _ _ _ _ _ r).trans ?_
  rw [val_main_v29_apply, ← plo_y_at]
  exact congrArg _ (funext fun a => Fin.ext (by match a with | ⟨0, _⟩ => rfl))

theorem pbox2_at (r : Fin 14400) :
    val_main_v32 (F := Ideal) x0 (ix2 r 2)
      = hi (val_main_v0 (F := Ideal) x0 (ix2 r 0)) (val_main_v0 (F := Ideal) x0 (ix2 r 2)) := by
  unfold val_main_v32
  refine (join4_at2 _ _ _ _ _ r).trans ?_
  rw [val_main_v30_apply, ← phi_x_at]
  exact congrArg _ (funext fun a => Fin.ext (by match a with | ⟨0, _⟩ => rfl))

theorem pbox3_at (r : Fin 14400) :
    val_main_v32 (F := Ideal) x0 (ix2 r 3)
      = hi (val_main_v0 (F := Ideal) x0 (ix2 r 1)) (val_main_v0 (F := Ideal) x0 (ix2 r 3)) := by
  unfold val_main_v32
  refine (join4_at3 _ _ _ _ _ r).trans ?_
  rw [val_main_v31_apply, ← phi_y_at]
  exact congrArg _ (funext fun a => Fin.ext (by match a with | ⟨0, _⟩ => rfl))

/-! ## The area of row r: (x1 - x0) * (y1 - y0), the corners read back out of the corner form -/

theorem pside_x1_at (r : Fin 14400) :
    val_main_v59 (F := Ideal) x0 (ix1 r) = val_main_v32 (F := Ideal) x0 (ix2 r 2) := by
  rw [val_main_v59_apply, val_main_v58_apply]
  exact congrArg _ (funext fun a => Fin.ext (by match a with | ⟨0, _⟩ => exact Nat.div_one _ | ⟨1, _⟩ => rfl))

theorem pside_x0_at (r : Fin 14400) :
    val_main_v61 (F := Ideal) x0 (ix1 r) = val_main_v32 (F := Ideal) x0 (ix2 r 0) := by
  rw [val_main_v61_apply, val_main_v60_apply]
  exact congrArg _ (funext fun a => Fin.ext (by match a with | ⟨0, _⟩ => exact Nat.div_one _ | ⟨1, _⟩ => rfl))

theorem pside_y1_at (r : Fin 14400) :
    val_main_v64 (F := Ideal) x0 (ix1 r) = val_main_v32 (F := Ideal) x0 (ix2 r 3) := by
  rw [val_main_v64_apply, val_main_v63_apply]
  exact congrArg _ (funext fun a => Fin.ext (by match a with | ⟨0, _⟩ => exact Nat.div_one _ | ⟨1, _⟩ => rfl))

theorem pside_y0_at (r : Fin 14400) :
    val_main_v66 (F := Ideal) x0 (ix1 r) = val_main_v32 (F := Ideal) x0 (ix2 r 1) := by
  rw [val_main_v66_apply, val_main_v65_apply]
  exact congrArg _ (funext fun a => Fin.ext (by match a with | ⟨0, _⟩ => exact Nat.div_one _ | ⟨1, _⟩ => rfl))

theorem parea_at (r : Fin 14400) :
    val_main_v68 (F := Ideal) x0 (ix1 r)
      = (hi (val_main_v0 (F := Ideal) x0 (ix2 r 0)) (val_main_v0 (F := Ideal) x0 (ix2 r 2))
          - lo (val_main_v0 (F := Ideal) x0 (ix2 r 0)) (val_main_v0 (F := Ideal) x0 (ix2 r 2)))
        * (hi (val_main_v0 (F := Ideal) x0 (ix2 r 1)) (val_main_v0 (F := Ideal) x0 (ix2 r 3))
          - lo (val_main_v0 (F := Ideal) x0 (ix2 r 1)) (val_main_v0 (F := Ideal) x0 (ix2 r 3))) := by
  rw [val_main_v68_apply, val_main_v62_apply, val_main_v67_apply, pside_x1_at, pside_x0_at, pside_y1_at,
    pside_y0_at, pbox0_at, pbox1_at, pbox2_at, pbox3_at]
  rfl

/-- The area broadcast along the ground-truth axis. -/
theorem parea_pair_at (r : Fin 14400) (j : Fin 1600) :
    val_main_v103 (F := Ideal) x0 (ix2 r j) = val_main_v68 (F := Ideal) x0 (ix1 r) := by
  rw [val_main_v103_apply, val_main_v101_apply]
  exact congrArg _ (funext fun a => Fin.ext (by match a with | ⟨0, _⟩ => rfl))

/-! ## The corner pairs broadcast along the ground-truth axis: low corners (columns 0, 1) and
    high corners (columns 2, 3), once for the intersection and once for the enclosing box -/

theorem plow_pair0_at (r : Fin 14400) (j : Fin 1600) :
    val_main_v84 (F := Ideal) x0 (ix3 r j 0) = val_main_v32 (F := Ideal) x0 (ix2 r 0) := by
  rw [val_main_v84_apply, val_main_v81_apply, val_main_v80_apply]
  exact congrArg _ (funext fun a => Fin.ext (by match a with | ⟨0, _⟩ => rfl | ⟨1, _⟩ => rfl))

theorem plow_pair1_at (r : Fin 14400) (j : Fin 1600) :
    val_main_v84 (F := Ideal) x0 (ix3 r j 1) = val_main_v32 (F := Ideal) x0 (ix2 r 1) := by
  rw [val_main_v84_apply, val_main_v81_apply, val_main_v80_apply]
  exact congrArg _ (funext fun a => Fin.ext (by match a with | ⟨0, _⟩ => rfl | ⟨1, _⟩ => rfl))

theorem phigh_pair0_at (r : Fin 14400) (j : Fin 1600) :
    val_main_v91 (F := Ideal) x0 (ix3 r j 0) = val_main_v32 (F := Ideal) x0 (ix2 r 2) := by
  rw [val_main_v91_apply, val_main_v88_apply, val_main_v87_apply]
  exact congrArg _ (funext fun a => Fin.ext (by match a with | ⟨0, _⟩ => rfl | ⟨1, _⟩ => rfl))

theorem phigh_pair1_at (r : Fin 14400) (j : Fin 1600) :
    val_main_v91 (F := Ideal) x0 (ix3 r j 1) = val_main_v32 (F := Ideal) x0 (ix2 r 3) := by
  rw [val_main_v91_apply, val_main_v88_apply, val_main_v87_apply]
  exact congrArg _ (funext fun a => Fin.ext (by match a with | ⟨0, _⟩ => rfl | ⟨1, _⟩ => rfl))

theorem plow_pair0_at' (r : Fin 14400) (j : Fin 1600) :
    val_main_v112 (F := Ideal) x0 (ix3 r j 0) = val_main_v32 (F := Ideal) x0 (ix2 r 0) := by
  rw [val_main_v112_apply, val_main_v109_apply, val_main_v108_apply]
  exact congrArg _ (funext fun a => Fin.ext (by match a with | ⟨0, _⟩ => rfl | ⟨1, _⟩ => rfl))

theorem plow_pair1_at' (r : Fin 14400) (j : Fin 1600) :
    val_main_v112 (F := Ideal) x0 (ix3 r j 1) = val_main_v32 (F := Ideal) x0 (ix2 r 1) := by
  rw [val_main_v112_apply, val_main_v109_apply, val_main_v108_apply]
  exact congrArg _ (funext fun a => Fin.ext (by match a with | ⟨0, _⟩ => rfl | ⟨1, _⟩ => rfl))

theorem phigh_pair0_at' (r : Fin 14400) (j : Fin 1600) :
    val_main_v119 (F := Ideal) x0 (ix3 r j 0) = val_main_v32 (F := Ideal) x0 (ix2 r 2) := by
  rw [val_main_v119_apply, val_main_v116_apply, val_main_v115_apply]
  exact congrArg _ (funext fun a => Fin.ext (by match a with | ⟨0, _⟩ => rfl | ⟨1, _⟩ => rfl))

theorem phigh_pair1_at' (r : Fin 14400) (j : Fin 1600) :
    val_main_v119 (F := Ideal) x0 (ix3 r j 1) = val_main_v32 (F := Ideal) x0 (ix2 r 3) := by
  rw [val_main_v119_apply, val_main_v116_apply, val_main_v115_apply]
  exact congrArg _ (funext fun a => Fin.ext (by match a with | ⟨0, _⟩ => rfl | ⟨1, _⟩ => rfl))

end Cert.DenseRead

end
-- ==== Proof.TruthBox.lean ====
/-
  The ground-truth side of the dense cost, read at an index. Each ground-truth row
  (cx, cy, w, h) of the array [1600, 4] is turned into the corner form
  (cx - w/2, cy - h/2, cx + w/2, cy + h/2) by four column reads, four half-width products and a
  four-column join; the row's area is the product of the two corner differences. Every lemma
  reads one of those arrays at a row j (and, for the copies broadcast against the prediction
  rows, at a pair (r, j)) in terms of the row's four coordinates.
-/
import proofs.«167534_j47588237639953_1_alg».proof.Proof.Gen.ReferenceIdeal.Read
import proofs.«167534_j47588237639953_1_alg».proof.Proof.CostSpec
import proofs.«167534_j47588237639953_1_alg».proof.Proof.JoinColumns
import Idealize.ShloMosaic.Lib.ValueIdx

noncomputable section

namespace Cert.DenseRead

open Idealize.ShloMosaic Idealize.ShloMosaic.ValueIdx Cert.ReferenceIdeal Cert.ReferenceIdeal.Read Cert.CostSpec

variable (x1 : (⟨S1600x4, .f32⟩ : BufTy).Contents (Elt Ideal))

/-! ## The four coordinate columns of the ground truth -/

theorem gcol0_at (j : Fin 1600) : val_main_v34 (F := Ideal) x1 (ix1 j) = x1 (ix2 j 0) := by
  rw [val_main_v34_apply, val_main_v33_apply]
  exact congrArg _ (funext fun a => Fin.ext (by match a with | ⟨0, _⟩ => exact Nat.div_one _ | ⟨1, _⟩ => rfl))

theorem gcol1_at (j : Fin 1600) : val_main_v36 (F := Ideal) x1 (ix1 j) = x1 (ix2 j 1) := by
  rw [val_main_v36_apply, val_main_v35_apply]
  exact congrArg _ (funext fun a => Fin.ext (by match a with | ⟨0, _⟩ => exact Nat.div_one _ | ⟨1, _⟩ => rfl))

theorem gcol2_at (j : Fin 1600) : val_main_v38 (F := Ideal) x1 (ix1 j) = x1 (ix2 j 2) := by
  rw [val_main_v38_apply, val_main_v37_apply]
  exact congrArg _ (funext fun a => Fin.ext (by match a with | ⟨0, _⟩ => exact Nat.div_one _ | ⟨1, _⟩ => rfl))

theorem gcol3_at (j : Fin 1600) : val_main_v40 (F := Ideal) x1 (ix1 j) = x1 (ix2 j 3) := by
  rw [val_main_v40_apply, val_main_v39_apply]
  exact congrArg _ (funext fun a => Fin.ext (by match a with | ⟨0, _⟩ => exact Nat.div_one _ | ⟨1, _⟩ => rfl))

/-! ## The four broadcast copies of the word one half -/

theorem ghalf0_at (j : Fin 1600) : val_main_v41 (F := Ideal) (ix1 j) = cHalf := by
  rw [val_main_v41_apply]; rfl
theorem ghalf1_at (j : Fin 1600) : val_main_v44 (F := Ideal) (ix1 j) = cHalf := by
  rw [val_main_v44_apply]; rfl
theorem ghalf2_at (j : Fin 1600) : val_main_v47 (F := Ideal) (ix1 j) = cHalf := by
  rw [val_main_v47_apply]; rfl
theorem ghalf3_at (j : Fin 1600) : val_main_v50 (F := Ideal) (ix1 j) = cHalf := by
  rw [val_main_v50_apply]; rfl

/-! ## The four corners of row j -/

/-- The low x corner: cx - w/2. -/
theorem glo_x_at (j : Fin 1600) :
    val_main_v43 (F := Ideal) x1 (ix1 j) = lo (x1 (ix2 j 0)) (x1 (ix2 j 2)) := by
  rw [val_main_v43_apply, val_main_v42_apply, gcol0_at, gcol2_at, ghalf0_at]
  rfl

/-- The low y corner: cy - h/2. -/
theorem glo_y_at (j : Fin 1600) :
    val_main_v46 (F := Ideal) x1 (ix1 j) = lo (x1 (ix2 j 1)) (x1 (ix2 j 3)) := by
  rw [val_main_v46_apply, val_main_v45_apply, gcol1_at, gcol3_at, ghalf1_at]
  rfl

/-- The high x corner: cx + w/2. -/
theorem ghi_x_at (j : Fin 1600) :
    val_main_v49 (F := Ideal) x1 (ix1 j) = hi (x1 (ix2 j 0)) (x1 (ix2 j 2)) := by
  rw [val_main_v49_apply, val_main_v48_apply, gcol0_at, gcol2_at, ghalf2_at]
  rfl

/-- The high y corner: cy + h/2. -/
theorem ghi_y_at (j : Fin 1600) :
    val_main_v52 (F := Ideal) x1 (ix1 j) = hi (x1 (ix2 j 1)) (x1 (ix2 j 3)) := by
  rw [val_main_v52_apply, val_main_v51_apply, gcol1_at, gcol3_at, ghalf3_at]
  rfl

/-! ## The corner form [1600, 4]: the four corners as columns, joined -/

theorem gbox0_at (j : Fin 1600) :
    val_main_v57 (F := Ideal) x1 (ix2 j 0) = lo (x1 (ix2 j 0)) (x1 (ix2 j 2)) := by
  unfold val_main_v57
  refine (join4_at0 _ _ _ _ _ j).trans ?_
  rw [val_main_v53_apply, ← glo_x_at]
  exact congrArg _ (funext fun a => Fin.ext (by match a with | ⟨0, _⟩ => rfl))

theorem gbox1_at (j : Fin 1600) :
    val_main_v57 (F := Ideal) x1 (ix2 j 1) = lo (x1 (ix2 j 1)) (x1 (ix2 j 3)) := by
  unfold val_main_v57
  refine (join4_at1 _ _ _ _ _ j).trans ?_
  rw [val_main_v54_apply, ← glo_y_at]
  exact congrArg _ (funext fun a => Fin.ext (by match a with | ⟨0, _⟩ => rfl))

theorem gbox2_at (j : Fin 1600) :
    val_main_v57 (F := Ideal) x1 (ix2 j 2) = hi (x1 (ix2 j 0)) (x1 (ix2 j 2)) := by
  unfold val_main_v57
  refine (join4_at2 _ _ _ _ _ j).trans ?_
  rw [val_main_v55_apply, ← ghi_x_at]
  exact congrArg _ (funext fun a => Fin.ext (by match a with | ⟨0, _⟩ => rfl))

theorem gbox3_at (j : Fin 1600) :
    val_main_v57 (F := Ideal) x1 (ix2 j 3) = hi (x1 (ix2 j 1)) (x1 (ix2 j 3)) := by
  unfold val_main_v57
  refine (join4_at3 _ _ _ _ _ j).trans ?_
  rw [val_main_v56_apply, ← ghi_y_at]
  exact congrArg _ (funext fun a => Fin.ext (by match a with | ⟨0, _⟩ => rfl))

/-! ## The area of row j: (x1 - x0) * (y1 - y0), the corners read back out of the corner form -/

theorem gside_x1_at (j : Fin 1600) :
    val_main_v70 (F := Ideal) x1 (ix1 j) = val_main_v57 (F := Ideal) x1 (ix2 j 2) := by
  rw [val_main_v70_apply, val_main_v69_apply]
  exact congrArg _ (funext fun a => Fin.ext (by match a with | ⟨0, _⟩ => exact Nat.div_one _ | ⟨1, _⟩ => rfl))

theorem gside_x0_at (j : Fin 1600) :
    val_main_v72 (F := Ideal) x1 (ix1 j) = val_main_v57 (F := Ideal) x1 (ix2 j 0) := by
  rw [val_main_v72_apply, val_main_v71_apply]
  exact congrArg _ (funext fun a => Fin.ext (by match a with | ⟨0, _⟩ => exact Nat.div_one _ | ⟨1, _⟩ => rfl))

theorem gside_y1_at (j : Fin 1600) :
    val_main_v75 (F := Ideal) x1 (ix1 j) = val_main_v57 (F := Ideal) x1 (ix2 j 3) := by
  rw [val_main_v75_apply, val_main_v74_apply]
  exact congrArg _ (funext fun a => Fin.ext (by match a with | ⟨0, _⟩ => exact Nat.div_one _ | ⟨1, _⟩ => rfl))

theorem gside_y0_at (j : Fin 1600) :
    val_main_v77 (F := Ideal) x1 (ix1 j) = val_main_v57 (F := Ideal) x1 (ix2 j 1) := by
  rw [val_main_v77_apply, val_main_v76_apply]
  exact congrArg _ (funext fun a => Fin.ext (by match a with | ⟨0, _⟩ => exact Nat.div_one _ | ⟨1, _⟩ => rfl))

theorem garea_at (j : Fin 1600) :
    val_main_v79 (F := Ideal) x1 (ix1 j)
      = (hi (x1 (ix2 j 0)) (x1 (ix2 j 2)) - lo (x1 (ix2 j 0)) (x1 (ix2 j 2)))
        * (hi (x1 (ix2 j 1)) (x1 (ix2 j 3)) - lo (x1 (ix2 j 1)) (x1 (ix2 j 3))) := by
  rw [val_main_v79_apply, val_main_v73_apply, val_main_v78_apply, gside_x1_at, gside_x0_at, gside_y1_at,
    gside_y0_at, gbox0_at, gbox1_at, gbox2_at, gbox3_at]
  rfl

/-- The area broadcast along the prediction axis. -/
theorem garea_pair_at (r : Fin 14400) (j : Fin 1600) :
    val_main_v104 (F := Ideal) x1 (ix2 r j) = val_main_v79 (F := Ideal) x1 (ix1 j) := by
  rw [val_main_v104_apply, val_main_v102_apply]
  exact congrArg _ (funext fun a => Fin.ext (by match a with | ⟨0, _⟩ => rfl))

/-! ## The corner pairs broadcast along the prediction axis: low corners (columns 0, 1) and
    high corners (columns 2, 3), once for the intersection and once for the enclosing box -/

theorem glow_pair0_at (r : Fin 14400) (j : Fin 1600) :
    val_main_v85 (F := Ideal) x1 (ix3 r j 0) = val_main_v57 (F := Ideal) x1 (ix2 j 0) := by
  rw [val_main_v85_apply, val_main_v83_apply, val_main_v82_apply]
  exact congrArg _ (funext fun a => Fin.ext (by match a with | ⟨0, _⟩ => rfl | ⟨1, _⟩ => rfl))

theorem glow_pair1_at (r : Fin 14400) (j : Fin 1600) :
    val_main_v85 (F := Ideal) x1 (ix3 r j 1) = val_main_v57 (F := Ideal) x1 (ix2 j 1) := by
  rw [val_main_v85_apply, val_main_v83_apply, val_main_v82_apply]
  exact congrArg _ (funext fun a => Fin.ext (by match a with | ⟨0, _⟩ => rfl | ⟨1, _⟩ => rfl))

theorem ghigh_pair0_at (r : Fin 14400) (j : Fin 1600) :
    val_main_v92 (F := Ideal) x1 (ix3 r j 0) = val_main_v57 (F := Ideal) x1 (ix2 j 2) := by
  rw [val_main_v92_apply, val_main_v90_apply, val_main_v89_apply]
  exact congrArg _ (funext fun a => Fin.ext (by match a with | ⟨0, _⟩ => rfl | ⟨1, _⟩ => rfl))

theorem ghigh_pair1_at (r : Fin 14400) (j : Fin 1600) :
    val_main_v92 (F := Ideal) x1 (ix3 r j 1) = val_main_v57 (F := Ideal) x1 (ix2 j 3) := by
  rw [val_main_v92_apply, val_main_v90_apply, val_main_v89_apply]
  exact congrArg _ (funext fun a => Fin.ext (by match a with | ⟨0, _⟩ => rfl | ⟨1, _⟩ => rfl))

theorem glow_pair0_at' (r : Fin 14400) (j : Fin 1600) :
    val_main_v113 (F := Ideal) x1 (ix3 r j 0) = val_main_v57 (F := Ideal) x1 (ix2 j 0) := by
  rw [val_main_v113_apply, val_main_v111_apply, val_main_v110_apply]
  exact congrArg _ (funext fun a => Fin.ext (by match a with | ⟨0, _⟩ => rfl | ⟨1, _⟩ => rfl))

theorem glow_pair1_at' (r : Fin 14400) (j : Fin 1600) :
    val_main_v113 (F := Ideal) x1 (ix3 r j 1) = val_main_v57 (F := Ideal) x1 (ix2 j 1) := by
  rw [val_main_v113_apply, val_main_v111_apply, val_main_v110_apply]
  exact congrArg _ (funext fun a => Fin.ext (by match a with | ⟨0, _⟩ => rfl | ⟨1, _⟩ => rfl))

theorem ghigh_pair0_at' (r : Fin 14400) (j : Fin 1600) :
    val_main_v120 (F := Ideal) x1 (ix3 r j 0) = val_main_v57 (F := Ideal) x1 (ix2 j 2) := by
  rw [val_main_v120_apply, val_main_v118_apply, val_main_v117_apply]
  exact congrArg _ (funext fun a => Fin.ext (by match a with | ⟨0, _⟩ => rfl | ⟨1, _⟩ => rfl))

theorem ghigh_pair1_at' (r : Fin 14400) (j : Fin 1600) :
    val_main_v120 (F := Ideal) x1 (ix3 r j 1) = val_main_v57 (F := Ideal) x1 (ix2 j 3) := by
  rw [val_main_v120_apply, val_main_v118_apply, val_main_v117_apply]
  exact congrArg _ (funext fun a => Fin.ext (by match a with | ⟨0, _⟩ => rfl | ⟨1, _⟩ => rfl))

end Cert.DenseRead

end
-- ==== Proof.Overlap.lean ====
/-
  The intersection of a prediction box and a ground-truth box, read at a pair (r, j): along each
  of the two axes the clipped length max 0 (min of the high corners - max of the low corners),
  and the intersection's area, the product of the two lengths.
-/
import proofs.«167534_j47588237639953_1_alg».proof.Proof.PredBox
import proofs.«167534_j47588237639953_1_alg».proof.Proof.TruthBox

noncomputable section

namespace Cert.DenseRead

open Idealize.ShloMosaic Idealize.ShloMosaic.ValueIdx Cert.ReferenceIdeal Cert.ReferenceIdeal.Read Cert.CostSpec

variable (x0 : (⟨S16x900x4, .f32⟩ : BufTy).Contents (Elt Ideal))
variable (x1 : (⟨S1600x4, .f32⟩ : BufTy).Contents (Elt Ideal))

/-- The clip's lower bound, the zero word broadcast to every pair and axis. -/
theorem inter_floor_at (r : Fin 14400) (j : Fin 1600) (c : Fin 2) :
    val_main_call0_v1 (F := Ideal) (ix3 r j c) = cZero := by
  rw [val_main_call0_v1_apply]; rfl

/-- The clipped length of the intersection along x. -/
theorem overlap_x_at (r : Fin 14400) (j : Fin 1600) :
    val_main_v95 (F := Ideal) x0 x1 (ix3 r j 0)
      = overlap (lo (val_main_v0 (F := Ideal) x0 (ix2 r 0)) (val_main_v0 (F := Ideal) x0 (ix2 r 2)))
          (hi (val_main_v0 (F := Ideal) x0 (ix2 r 0)) (val_main_v0 (F := Ideal) x0 (ix2 r 2)))
          (lo (x1 (ix2 j 0)) (x1 (ix2 j 2))) (hi (x1 (ix2 j 0)) (x1 (ix2 j 2))) := by
  rw [val_main_v95_apply, val_main_v94_apply, val_main_v93_apply, val_main_v86_apply, inter_floor_at,
    plow_pair0_at, glow_pair0_at, phigh_pair0_at, ghigh_pair0_at, pbox0_at, pbox2_at, gbox0_at, gbox2_at]
  rfl

/-- The clipped length of the intersection along y. -/
theorem overlap_y_at (r : Fin 14400) (j : Fin 1600) :
    val_main_v95 (F := Ideal) x0 x1 (ix3 r j 1)
      = overlap (lo (val_main_v0 (F := Ideal) x0 (ix2 r 1)) (val_main_v0 (F := Ideal) x0 (ix2 r 3)))
          (hi (val_main_v0 (F := Ideal) x0 (ix2 r 1)) (val_main_v0 (F := Ideal) x0 (ix2 r 3)))
          (lo (x1 (ix2 j 1)) (x1 (ix2 j 3))) (hi (x1 (ix2 j 1)) (x1 (ix2 j 3))) := by
  rw [val_main_v95_apply, val_main_v94_apply, val_main_v93_apply, val_main_v86_apply, inter_floor_at,
    plow_pair1_at, glow_pair1_at, phigh_pair1_at, ghigh_pair1_at, pbox1_at, pbox3_at, gbox1_at, gbox3_at]
  rfl

/-- The x length as its own [14400, 1600] array. -/
theorem inter_w_at (r : Fin 14400) (j : Fin 1600) :
    val_main_v97 (F := Ideal) x0 x1 (ix2 r j) = val_main_v95 (F := Ideal) x0 x1 (ix3 r j 0) := by
  have hr := r.isLt; have hj := j.isLt
  rw [val_main_v97_apply, val_main_v96_apply]
  exact congrArg _ (funext fun a => Fin.ext (by
    match a with
    | ⟨0, _⟩ => show (r.val * 1600 + j.val) / 1600 = r.val; omega
    | ⟨1, _⟩ => show (r.val * 1600 + j.val) / 1 % 1600 = j.val; omega
    | ⟨2, _⟩ => rfl))

/-- The y length as its own [14400, 1600] array. -/
theorem inter_h_at (r : Fin 14400) (j : Fin 1600) :
    val_main_v99 (F := Ideal) x0 x1 (ix2 r j) = val_main_v95 (F := Ideal) x0 x1 (ix3 r j 1) := by
  have hr := r.isLt; have hj := j.isLt
  rw [val_main_v99_apply, val_main_v98_apply]
  exact congrArg _ (funext fun a => Fin.ext (by
    match a with
    | ⟨0, _⟩ => show (r.val * 1600 + j.val) / 1600 = r.val; omega
    | ⟨1, _⟩ => show (r.val * 1600 + j.val) / 1 % 1600 = j.val; omega
    | ⟨2, _⟩ => rfl))

/-- The area of the intersection. -/
theorem inter_at (r : Fin 14400) (j : Fin 1600) :
    val_main_v100 (F := Ideal) x0 x1 (ix2 r j)
      = overlap (lo (val_main_v0 (F := Ideal) x0 (ix2 r 0)) (val_main_v0 (F := Ideal) x0 (ix2 r 2)))
          (hi (val_main_v0 (F := Ideal) x0 (ix2 r 0)) (val_main_v0 (F := Ideal) x0 (ix2 r 2)))
          (lo (x1 (ix2 j 0)) (x1 (ix2 j 2))) (hi (x1 (ix2 j 0)) (x1 (ix2 j 2)))
        * overlap (lo (val_main_v0 (F := Ideal) x0 (ix2 r 1)) (val_main_v0 (F := Ideal) x0 (ix2 r 3)))
          (hi (val_main_v0 (F := Ideal) x0 (ix2 r 1)) (val_main_v0 (F := Ideal) x0 (ix2 r 3)))
          (lo (x1 (ix2 j 1)) (x1 (ix2 j 3))) (hi (x1 (ix2 j 1)) (x1 (ix2 j 3))) := by
  rw [val_main_v100_apply, inter_w_at, inter_h_at, overlap_x_at, overlap_y_at]
  rfl

end Cert.DenseRead

end
-- ==== Proof.Enclosing.lean ====
/-
  The smallest box enclosing a prediction box and a ground-truth box, read at a pair (r, j):
  along each of the two axes the clipped length max 0 (max of the high corners - min of the low
  corners), and the enclosing box's area, the product of the two lengths.
-/
import proofs.«167534_j47588237639953_1_alg».proof.Proof.PredBox
import proofs.«167534_j47588237639953_1_alg».proof.Proof.TruthBox

noncomputable section

namespace Cert.DenseRead

open Idealize.ShloMosaic Idealize.ShloMosaic.ValueIdx Cert.ReferenceIdeal Cert.ReferenceIdeal.Read Cert.CostSpec

variable (x0 : (⟨S16x900x4, .f32⟩ : BufTy).Contents (Elt Ideal))
variable (x1 : (⟨S1600x4, .f32⟩ : BufTy).Contents (Elt Ideal))

/-- The clip's lower bound, the zero word broadcast to every pair and axis. -/
theorem span_floor_at (r : Fin 14400) (j : Fin 1600) (c : Fin 2) :
    val_main_call1_v1 (F := Ideal) (ix3 r j c) = cZero := by
  rw [val_main_call1_v1_apply]; rfl

/-- The clipped length of the enclosing box along x. -/
theorem span_x_at (r : Fin 14400) (j : Fin 1600) :
    val_main_v123 (F := Ideal) x0 x1 (ix3 r j 0)
      = span (lo (val_main_v0 (F := Ideal) x0 (ix2 r 0)) (val_main_v0 (F := Ideal) x0 (ix2 r 2)))
          (hi (val_main_v0 (F := Ideal) x0 (ix2 r 0)) (val_main_v0 (F := Ideal) x0 (ix2 r 2)))
          (lo (x1 (ix2 j 0)) (x1 (ix2 j 2))) (hi (x1 (ix2 j 0)) (x1 (ix2 j 2))) := by
  rw [val_main_v123_apply, val_main_v122_apply, val_main_v121_apply, val_main_v114_apply, span_floor_at,
    plow_pair0_at', glow_pair0_at', phigh_pair0_at', ghigh_pair0_at', pbox0_at, pbox2_at, gbox0_at, gbox2_at]
  rfl

/-- The clipped length of the enclosing box along y. -/
theorem span_y_at (r : Fin 14400) (j : Fin 1600) :
    val_main_v123 (F := Ideal) x0 x1 (ix3 r j 1)
      = span (lo (val_main_v0 (F := Ideal) x0 (ix2 r 1)) (val_main_v0 (F := Ideal) x0 (ix2 r 3)))
          (hi (val_main_v0 (F := Ideal) x0 (ix2 r 1)) (val_main_v0 (F := Ideal) x0 (ix2 r 3)))
          (lo (x1 (ix2 j 1)) (x1 (ix2 j 3))) (hi (x1 (ix2 j 1)) (x1 (ix2 j 3))) := by
  rw [val_main_v123_apply, val_main_v122_apply, val_main_v121_apply, val_main_v114_apply, span_floor_at,
    plow_pair1_at', glow_pair1_at', phigh_pair1_at', ghigh_pair1_at', pbox1_at, pbox3_at, gbox1_at, gbox3_at]
  rfl

/-- The x length as its own [14400, 1600] array. -/
theorem encl_w_at (r : Fin 14400) (j : Fin 1600) :
    val_main_v125 (F := Ideal) x0 x1 (ix2 r j) = val_main_v123 (F := Ideal) x0 x1 (ix3 r j 0) := by
  have hr := r.isLt; have hj := j.isLt
  rw [val_main_v125_apply, val_main_v124_apply]
  exact congrArg _ (funext fun a => Fin.ext (by
    match a with
    | ⟨0, _⟩ => show (r.val * 1600 + j.val) / 1600 = r.val; omega
    | ⟨1, _⟩ => show (r.val * 1600 + j.val) / 1 % 1600 = j.val; omega
    | ⟨2, _⟩ => rfl))

/-- The y length as its own [14400, 1600] array. -/
theorem encl_h_at (r : Fin 14400) (j : Fin 1600) :
    val_main_v127 (F := Ideal) x0 x1 (ix2 r j) = val_main_v123 (F := Ideal) x0 x1 (ix3 r j 1) := by
  have hr := r.isLt; have hj := j.isLt
  rw [val_main_v127_apply, val_main_v126_apply]
  exact congrArg _ (funext fun a => Fin.ext (by
    match a with
    | ⟨0, _⟩ => show (r.val * 1600 + j.val) / 1600 = r.val; omega
    | ⟨1, _⟩ => show (r.val * 1600 + j.val) / 1 % 1600 = j.val; omega
    | ⟨2, _⟩ => rfl))

/-- The area of the enclosing box. -/
theorem encl_at (r : Fin 14400) (j : Fin 1600) :
    val_main_v128 (F := Ideal) x0 x1 (ix2 r j)
      = span (lo (val_main_v0 (F := Ideal) x0 (ix2 r 0)) (val_main_v0 (F := Ideal) x0 (ix2 r 2)))
          (hi (val_main_v0 (F := Ideal) x0 (ix2 r 0)) (val_main_v0 (F := Ideal) x0 (ix2 r 2)))
          (lo (x1 (ix2 j 0)) (x1 (ix2 j 2))) (hi (x1 (ix2 j 0)) (x1 (ix2 j 2)))
        * span (lo (val_main_v0 (F := Ideal) x0 (ix2 r 1)) (val_main_v0 (F := Ideal) x0 (ix2 r 3)))
          (hi (val_main_v0 (F := Ideal) x0 (ix2 r 1)) (val_main_v0 (F := Ideal) x0 (ix2 r 3)))
          (lo (x1 (ix2 j 1)) (x1 (ix2 j 3))) (hi (x1 (ix2 j 1)) (x1 (ix2 j 3))) := by
  rw [val_main_v128_apply, encl_w_at, encl_h_at, span_x_at, span_y_at]
  rfl

end Cert.DenseRead

end
-- ==== Proof.DenseRead.lean ====
/-
  The reference's result read at an index (b, q, j): the matching cost of prediction q of batch b
  against ground-truth box j, as the scalar function `costDense` of the eight coordinates.
  For a flat prediction row r the pieces are put together in the program's order: the union
  area (area of r + area of j - intersection), the IoU (intersection / union), the enclosing
  term ((enclosing - union) / enclosing), their difference negated and weighted by two, added to
  five times the L1 distance; the final reshape sends (b, q, j) to the row b * 900 + q.
-/
import proofs.«167534_j47588237639953_1_alg».proof.Proof.Distance
import proofs.«167534_j47588237639953_1_alg».proof.Proof.Overlap
import proofs.«167534_j47588237639953_1_alg».proof.Proof.Enclosing

noncomputable section

namespace Cert.DenseRead

open Idealize.ShloMosaic Idealize.ShloMosaic.ValueIdx Cert.ReferenceIdeal Cert.ReferenceIdeal.Read Cert.CostSpec

variable (x0 : (⟨S16x900x4, .f32⟩ : BufTy).Contents (Elt Ideal))
variable (x1 : (⟨S1600x4, .f32⟩ : BufTy).Contents (Elt Ideal))

/-- The L1 weight, the word five broadcast to every pair. -/
theorem weight_l1_at (r : Fin 14400) (j : Fin 1600) : val_main_v133 (F := Ideal) (ix2 r j) = cFive := by
  rw [val_main_v133_apply]; rfl

/-- The GIoU weight, the word two broadcast to every pair. -/
theorem weight_giou_at (r : Fin 14400) (j : Fin 1600) : val_main_v135 (F := Ideal) (ix2 r j) = cTwo := by
  rw [val_main_v135_apply]; rfl

/-- The cost of flat prediction row r against ground-truth row j. -/
theorem cost_row_at (r : Fin 14400) (j : Fin 1600) :
    val_main_v137 (F := Ideal) x0 x1 (ix2 r j)
      = costDense (val_main_v0 (F := Ideal) x0 (ix2 r 0)) (val_main_v0 (F := Ideal) x0 (ix2 r 1))
          (val_main_v0 (F := Ideal) x0 (ix2 r 2)) (val_main_v0 (F := Ideal) x0 (ix2 r 3))
          (x1 (ix2 j 0)) (x1 (ix2 j 1)) (x1 (ix2 j 2)) (x1 (ix2 j 3)) := by
  rw [val_main_v137_apply, val_main_v134_apply, val_main_v136_apply, val_main_v132_apply, val_main_v131_apply,
    val_main_v107_apply, val_main_v130_apply, val_main_v129_apply, val_main_v106_apply, val_main_v105_apply,
    weight_l1_at, weight_giou_at, l1_at, inter_at, encl_at, parea_pair_at, garea_pair_at, parea_at, garea_at]
  rfl

/-- The final reshape's index: (b, q, j) is row b * 900 + q, column j. -/
theorem out_idx_at (b : Fin 16) (q : Fin 900) (j : Fin 1600) :
    idx_main_v138 (ix3 b q j) = ix2 (row b q) j := by
  have hb := b.isLt; have hq := q.isLt; have hj := j.isLt
  exact funext fun a => Fin.ext (by
    match a with
    | ⟨0, _⟩ => show ((b.val * 900 + q.val) * 1600 + j.val) / 1600 = b.val * 900 + q.val; omega
    | ⟨1, _⟩ => show ((b.val * 900 + q.val) * 1600 + j.val) % 1600 = j.val; omega)

/-- THE REFERENCE AT AN INDEX: its result at (b, q, j) is `costDense` of prediction (b, q)'s and
    ground-truth box j's coordinates. -/
theorem dense_at (x0 : (⟨S16x900x4, .f32⟩ : BufTy).Contents (Elt Ideal))
    (x1 : (⟨S1600x4, .f32⟩ : BufTy).Contents (Elt Ideal)) (b : Fin 16) (q : Fin 900) (j : Fin 1600) :
    Cert.ReferenceIdeal.Read.val_main_v138 (F := Ideal) x0 x1 (ix3 b q j)
      = Cert.CostSpec.costDense (x0 (ix3 b q 0)) (x0 (ix3 b q 1)) (x0 (ix3 b q 2)) (x0 (ix3 b q 3))
          (x1 (ix2 j 0)) (x1 (ix2 j 1)) (x1 (ix2 j 2)) (x1 (ix2 j 3)) := by
  rw [val_main_v138_apply, out_idx_at, cost_row_at, flat_at, flat_at, flat_at, flat_at]

end Cert.DenseRead

end
-- ==== Proof.LibFinite.lean ====
/-
  General facts about finiteness on the extended reals, for certificates whose precondition says that every
  float input is finite and whose algebra (distributivity, cancellation) needs it.

  * `coe_sum`: the inclusion of the reals into the extended reals commutes with finite sums, so an identity
    between sums of finite entries can be proved over the reals and carried back.
  * `ofBool_one`, `inf_word`, `finite_of_abs_lt`: one element of a printed `|x| < +∞` test, read back — the
    f32 word `0x7F800000` is `+∞`, `|x|` is `max x (-x)`, and that is below `+∞` only when `x` is a real number.
-/
import Idealize.ShloMosaic.PureOps.Ideal
import Idealize.ShloMosaic.PureOps.Ideal.Laws

namespace Cert.LibFinite

open Idealize.ShloMosaic

/-- The inclusion of the reals into the extended reals commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A Boolean read as a one-bit word is the word 1 exactly when it is true. -/
theorem ofBool_one (b : Bool) : BitVec.ofBool b = 1#1 ↔ b = true := by cases b <;> decide

/-- The f32 word `0x7F800000` is `+∞`. -/
theorem inf_word : Ideal.ofBits .f32 0x7F800000#32 = ⊤ := by simp [Ideal.ofBits, Ideal.ieee]

/-- An extended real whose absolute value compares below `+∞` is neither infinity: `|x| = max x (-x)` is `+∞` at
    both. (The host's and the kernel's absolute value are one function on the extended reals.) -/
theorem finite_of_abs_lt (x : EReal)
    (h : FloatOps.cmpf (F := Ideal) (φ := .f32) .olt (FloatOps.hostAbsf (F := Ideal) (φ := .f32) x)
      (Ideal.ofBits .f32 0x7F800000#32) = 1#1) : x ≠ ⊤ ∧ x ≠ ⊥ := by
  rw [Ideal.hostAbsf_def, Ideal.absf_def, Ideal.cmpf_def, inf_word] at h
  have h2 : BitVec.ofBool (decide (max x (-x) < ⊤)) = 1#1 := h
  have h' : max x (-x) < ⊤ := of_decide_eq_true ((ofBool_one _).1 h2)
  induction x using EReal.rec with
  | bot => simp at h'
  | top => simp at h'
  | coe r => exact ⟨EReal.coe_ne_top r, EReal.coe_ne_bot r⟩

end Cert.LibFinite
-- ==== Proof.FiniteInputs.lean ====
/-
  The precondition read back: both argument arrays hold real numbers. The printed predicate is the conjunction of
  two `all` reductions of the elementwise test `|x| < +∞`; it is the constant-one word only when every element of
  both arrays passes the test, and an extended real passes it exactly when it is neither infinity.
-/
import proofs.«167534_j47588237639953_1_alg».proof.Pre_finite_inputs
import proofs.«167534_j47588237639953_1_alg».proof.Proof.Gen.Pre_finite_inputs
import proofs.«167534_j47588237639953_1_alg».proof.Proof.LibFinite
import Idealize.ShloMosaic.Lib.ReduceAll
import Idealize.ShloMosaic.Lib.Affine
import Idealize.ShloMosaic.Lib.ValueIdx

noncomputable section

namespace Cert.FiniteInputs

open Idealize.ShloMosaic Cert.Pre_finite_inputs

/-- The rank-zero shape has one index. -/
instance : Subsingleton S_.Idx := ⟨fun a b => funext fun d => d.elim0⟩

/-- Under the precondition every element of both arrays is a real number. -/
theorem finite_of_pre (x0 : FVec Ideal S16x900x4 .f32) (x1 : FVec Ideal S1600x4 .f32)
    (h : Cert.Pre_finite_inputs.fn (F := Ideal) x0 x1 = fun _ => 1#1) :
    (∀ i, x0 i ≠ ⊤ ∧ x0 i ≠ ⊥) ∧ (∀ i, x1 i ≠ ⊤ ∧ x1 i ≠ ⊥) := by
  have h0 := congrFun h ValueIdx.ix0
  dsimp only [Cert.Pre_finite_inputs.fn] at h0
  have h1 := IntOp.andi_eq_one.1 h0
  refine ⟨fun i => ?_, fun i => ?_⟩
  · exact Cert.LibFinite.finite_of_abs_lt _ (Host.reduce_andi_all _ _ _ _ _ h1.1 i)
  · exact Cert.LibFinite.finite_of_abs_lt _ (Host.reduce_andi_all _ _ _ _ _ h1.2 i)

/-- A real witness of an element that is neither infinity. -/
theorem exists_real {x : EReal} (h : x ≠ ⊤ ∧ x ≠ ⊥) : ∃ r : ℝ, x = (r : EReal) :=
  ⟨x.toReal, (EReal.coe_toReal h.1 h.2).symm⟩

end Cert.FiniteInputs

end
-- ==== Proof.lean ====
/-
  The DETR matching cost, tiled against dense. Both programs compute, for each of 16 × 900 predicted boxes and each
  of 1600 ground-truth boxes (centre x, centre y, width, height), five times the L1 distance of the coordinates
  less twice the generalized IoU of the boxes. The tiled program pads the ground truth to 1792 rows, computes a
  `[1, 900, 256]` tile per grid point from one batch of predictions and 256 padded rows, and cuts the padded columns
  off afterwards; each box's area is width times height. The dense program works on the flattened `[14400, 4]`
  predictions, takes each area from the corners, sums the L1 distance with a host reduction, and adds the negated
  weighted GIoU. Index by index the two are `CostSpec.costTiled` and `CostSpec.costDense` of the same eight
  coordinates, which agree when the coordinates are real numbers — what the precondition gives.
  The three frames are the generated ones (the dense program's is its run with the result dropped), and the
  idealization rewrote nothing.
-/
import proofs.«167534_j47588237639953_1_alg».proof.Defs
import proofs.«167534_j47588237639953_1_alg».proof.Proof.Gen.Kernel
import proofs.«167534_j47588237639953_1_alg».proof.Proof.Gen.Kernel.Frame
import proofs.«167534_j47588237639953_1_alg».proof.Proof.Gen.KernelIdeal
import proofs.«167534_j47588237639953_1_alg».proof.Proof.Gen.KernelIdeal.Frame
import proofs.«167534_j47588237639953_1_alg».proof.Proof.Gen.ReferenceIdeal
import proofs.«167534_j47588237639953_1_alg».proof.Proof.Gen.ReferenceIdeal.Run
import proofs.«167534_j47588237639953_1_alg».proof.Proof.Gen.ReferenceIdeal.Read
import proofs.«167534_j47588237639953_1_alg».proof.Proof.Gen.Pre_finite_inputs
import proofs.«167534_j47588237639953_1_alg».proof.Proof.CostSpec
import proofs.«167534_j47588237639953_1_alg».proof.Proof.CostRun
import proofs.«167534_j47588237639953_1_alg».proof.Proof.DenseRead
import proofs.«167534_j47588237639953_1_alg».proof.Proof.FiniteInputs
import Idealize.ShloMosaic.Adequacy
import Idealize.ShloMosaic.Init

noncomputable section

namespace Cert.Proof

open Idealize.ShloMosaic Idealize.ShloMosaic.TcCoe Idealize.SL.Sem Idealize.ShloMosaic.ValueIdx Cert.CostSpec

theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- On arrays of real numbers the dense program's result is the tiled program's: at every index the dense cost of
    the eight coordinates is the tiled cost. -/
theorem result_agree (A : Cert.KernelIdeal.S16x900x4.Idx → EReal) (B : Cert.KernelIdeal.S1600x4.Idx → EReal)
    (hA : ∀ i, A i ≠ ⊤ ∧ A i ≠ ⊥) (hB : ∀ i, B i ≠ ⊤ ∧ B i ≠ ⊥) :
    Cert.ReferenceIdeal.Read.val_main_v138 (F := Ideal) A B = Cert.KernelIdeal.CostArray.costResult A B := by
  funext i
  obtain ⟨b, q, j, rfl⟩ : ∃ (b : Fin 16) (q : Fin 900) (j : Fin 1600), i = ix3 b q j := ⟨i 0, i 1, i 2, eq_ix3 i⟩
  rw [Cert.DenseRead.dense_at]
  obtain ⟨a0, h0⟩ := Cert.FiniteInputs.exists_real (hA (ix3 b q (0 : Fin 4)))
  obtain ⟨a1, h1⟩ := Cert.FiniteInputs.exists_real (hA (ix3 b q (1 : Fin 4)))
  obtain ⟨a2, h2⟩ := Cert.FiniteInputs.exists_real (hA (ix3 b q (2 : Fin 4)))
  obtain ⟨a3, h3⟩ := Cert.FiniteInputs.exists_real (hA (ix3 b q (3 : Fin 4)))
  obtain ⟨b0, g0⟩ := Cert.FiniteInputs.exists_real (hB (ix2 j (0 : Fin 4)))
  obtain ⟨b1, g1⟩ := Cert.FiniteInputs.exists_real (hB (ix2 j (1 : Fin 4)))
  obtain ⟨b2, g2⟩ := Cert.FiniteInputs.exists_real (hB (ix2 j (2 : Fin 4)))
  obtain ⟨b3, g3⟩ := Cert.FiniteInputs.exists_real (hB (ix2 j (3 : Fin 4)))
  show _ = costTiled (A (ix3 b q (0 : Fin 4))) (A (ix3 b q (1 : Fin 4))) (A (ix3 b q (2 : Fin 4))) (A (ix3 b q (3 : Fin 4))) (B (ix2 j (0 : Fin 4))) (B (ix2 j (1 : Fin 4))) (B (ix2 j (2 : Fin 4))) (B (ix2 j (3 : Fin 4)))
  rw [h0, h1, h2, h3, g0, g1, g2, g3]
  exact costDense_eq_costTiled a0 a1 a2 a3 b0 b1 b2 b3

/-- From memories that agree on the arguments both idealized programs run and end with equal results: the tiled
    program's run leaves `costResult` of the arguments, the dense program's its last stage of the same arguments, and
    the precondition makes every coordinate a real number. -/
theorem algebraic : Cert.algebraic_KernelIdeal_ReferenceIdeal := by
  intro m ρ m' ρ' hpre hagree
  refine ⟨fun c => Cert.KernelIdeal.CostArray.costResult
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.CostArray.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v138_eq, (hagree c).1, (hagree c).2]
  obtain ⟨hA, hB⟩ := Cert.FiniteInputs.finite_of_pre _ _ (hpre c)
  exact result_agree _ _ hA hB

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
